-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x3 : Shape := ⟨2, ![16, 3]⟩
abbrev S3 : Shape := ⟨1, ![3]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x16 : S_.BroadcastsInDim S500x16 (![] : Fin 0 → Fin S500x16.rank)
  reducesTo_S500x16_S_d0_1 : S500x16.ReducesTo [0, 1] S_
  bcast_S_S16 : S_.BroadcastsInDim S16 (![] : Fin 0 → Fin S16.rank)
  reducesTo_S16_S_d0 : S16.ReducesTo [0] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S100000x500 .f32) (main_arg1 : IVec S2x3200000 32) (main_arg2 : FVec F S500x16 .f32) (main_arg3 : FVec F S16 .f32) (main_arg4 : FVec F S16x3 .f32) (main_arg5 : FVec F S3 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x16 .f32 := Host.absf main_arg2
  let main_cst_0 : FVec F S_ .f32 := constant S_ .f32 0x7F800000#32
  let main_v5 : FVec F S500x16 .f32 := broadcastInDim S500x16 ![] bcast_S_S500x16 main_cst_0
  let main_v6 : IVec S500x16 1 := cmpf .olt main_v4 main_v5
  let main_c_1 : IVec S_ 1 := constantI S_ 1 1#1
  let main_v7 : IVec S_ 1 := (fun x v => Host.reduce IntOp.andi x v reducesTo_S500x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x3 .f32 := Host.absf main_arg4
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_arg5 main_v13 main_v16
-- ==== Kernel.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x3 : Shape := ⟨2, ![16, 3]⟩
abbrev S3 : Shape := ⟨1, ![3]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x500 : Shape := ⟨2, ![2000, 500]⟩
abbrev S2000x16 : Shape := ⟨2, ![2000, 16]⟩
abbrev S3300000x16 : Shape := ⟨2, ![3300000, 16]⟩
abbrev S1x16 : Shape := ⟨2, ![1, 16]⟩
abbrev S100000x3 : Shape := ⟨2, ![100000, 3]⟩
abbrev S2000x3 : Shape := ⟨2, ![2000, 3]⟩
abbrev S3300000x3 : Shape := ⟨2, ![3300000, 3]⟩
abbrev S1x3 : Shape := ⟨2, ![1, 3]⟩
abbrev S2000 : Shape := ⟨1, ![2000]⟩
abbrev S2000x1 : Shape := ⟨2, ![2000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x500, .f32⟩
  | .hbm, ⟨1, _⟩ => ⟨S2x3200000, .i32⟩
  | .hbm, ⟨2, _⟩ => ⟨S500x16, .f32⟩
  | .hbm, ⟨3, _⟩ => ⟨S16, .f32⟩
  | .hbm, ⟨4, _⟩ => ⟨S16x3, .f32⟩
  | .hbm, ⟨5, _⟩ => ⟨S3, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x3, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x3, .f32⟩
  | .hbm, ⟨75, _⟩ => ⟨S3300000x1, .f32⟩
  | .hbm, ⟨76, _⟩ => ⟨S3300000x3, .f32⟩
  | .hbm, ⟨77, _⟩ => ⟨S3300000x3, .f32⟩
  | .hbm, ⟨78, _⟩ => ⟨S_, .f32⟩
  | .hbm, ⟨79, _⟩ => ⟨S100000x3, .f32⟩
  | .hbm, ⟨80, _⟩ => ⟨S3300000x1, .i32⟩
  | .hbm, ⟨81, _⟩ => ⟨S100000x3, .f32⟩
  | .hbm, ⟨82, _⟩ => ⟨S1x3, .f32⟩
  | .hbm, ⟨83, _⟩ => ⟨S100000x3, .f32⟩
  | .local _ .vmem, ⟨0, _⟩ => ⟨S2000x500, .f32⟩
  | .local _ .vmem, ⟨1, _⟩ => ⟨S2000x500, .f32⟩
  | .local _ .vmem, ⟨2, _⟩ => ⟨S500x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S16x3, .f32⟩
  | .local _ .vmem, ⟨13, _⟩ => ⟨S2000x3, .f32⟩
  | .local _ .vmem, ⟨14, _⟩ => ⟨S2000x3, .f32⟩
  | .local _ .vmem, ⟨15, _⟩ => ⟨S2000x3, .f32⟩
  | .local _ .vmem, ⟨16, _⟩ => ⟨S2000x3, .f32⟩
  | .local _ .vmem, ⟨17, _⟩ => ⟨S1x3, .f32⟩
  | .local _ .vmem, ⟨18, _⟩ => ⟨S2000x3, .f32⟩
  | .local _ .vmem, ⟨19, _⟩ => ⟨S2000x3, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x3 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x16_S500x16_0_0 : ∀ a, (![0, 0] : Fin 2 → Nat) a + S500x16.size a ≤ S500x16.size a
  h_S500x16 : 0 < S500x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x3_S16x3_0_0 : ∀ a, (![0, 0] : Fin 2 → Nat) a + S16x3.size a ≤ S16x3.size a
  h_S16x3 : 0 < S16x3.numel
  inb_S2000x3_S2000x3_0_0 : ∀ a, (![0, 0] : Fin 2 → Nat) a + S2000x3.size a ≤ S2000x3.size a
  h_S2000x3 : 0 < S2000x3.numel
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  shapeCasts_S3_S1x3 : S3.ShapeCasts S1x3
  shapeCasts_S2000x3_S2000x3 : S2000x3.ShapeCasts S2000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  reduces_S2000x3_S2000 : S2000x3.Reduces [1] S2000
  shapeCasts_S2000_S2000x1 : S2000.ShapeCasts S2000x1
  broadcasts_S2000x1_S2000x3 : S2000x1.Broadcasts S2000x3
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x500_S500x16_S2000x16_1_0_0_1_n_n_wf : DotDims.WF S2000x500 S500x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x3_S2000x3_1_0_0_1_n_n_wf : DotDims.WF S2000x16 S16x3 S2000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S100000x500.size a
  hwx0_0 : ∀ i : grid0.Coords, EltTy.bits .f32 = 32 ∨ (Rect.block (s := S100000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x16.size a ≤ S500x16.size a
  hwx0_1 : ∀ i : grid0.Coords, EltTy.bits .f32 = 32 ∨ (Rect.block (s := S500x16) S500x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x3.size a ≤ S16x3.size a
  hwx2_1 : ∀ i : grid2.Coords, EltTy.bits .f32 = 32 ∨ (Rect.block (s := S16x3) S16x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x3.size a ≤ S100000x3.size a
  hwx2_2 : ∀ i : grid2.Coords, EltTy.bits .f32 = 32 ∨ (Rect.block (s := S100000x3) S2000x3.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x3.size a ≤ S100000x3.size a
  hwx3_0 : ∀ i : grid3.Coords, EltTy.bits .f32 = 32 ∨ (Rect.block (s := S100000x3) S2000x3.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x3.size a ≤ S1x3.size a
  hwx3_1 : ∀ i : grid3.Coords, EltTy.bits .f32 = 32 ∨ (Rect.block (s := S1x3) S1x3.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x3.size a ≤ S100000x3.size a
  hwx3_2 : ∀ i : grid3.Coords, EltTy.bits .f32 = 32 ∨ (Rect.block (s := S100000x3) S2000x3.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x500_S500x16_S2000x16_1_0_0_1_n_n : DotDims S2000x500 S500x16 S2000x16 where
  lhsContracting := [1]
  rhsContracting := [0]
  lhsNonContracting := [0]
  rhsNonContracting := [1]
  lhsBatch := []
  rhsBatch := []
  wf := dot_S2000x500_S500x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x3_S2000x3_1_0_0_1_n_n : DotDims S2000x16 S16x3 S2000x3 where
  lhsContracting := [1]
  rhsContracting := [0]
  lhsNonContracting := [0]
  rhsNonContracting := [1]
  lhsBatch := []
  rhsBatch := []
  wf := dot_S2000x16_S16x3_S2000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x3.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x3.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x3 : Shape := ⟨2, ![16, 3]⟩
abbrev S3 : Shape := ⟨1, ![3]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x3 : Shape := ⟨2, ![100000, 3]⟩
abbrev S3300000x3 : Shape := ⟨2, ![3300000, 3]⟩
abbrev S1x3 : Shape := ⟨2, ![1, 3]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x500, .f32⟩
  | 1 => ⟨S2x3200000, .i32⟩
  | 2 => ⟨S500x16, .f32⟩
  | 3 => ⟨S16, .f32⟩
  | 4 => ⟨S16x3, .f32⟩
  | 5 => ⟨S3, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S100000x16, .f32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x3, .f32⟩
  | 70 => ⟨S_, .f32⟩
  | 71 => ⟨S3300000, .f32⟩
  | 72 => ⟨S_, .f32⟩
  | 73 => ⟨S100000, .f32⟩
  | 74 => ⟨S3300000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x3, .f32⟩
  | 112 => ⟨S3300000x1, .f32⟩
  | 113 => ⟨S3300000x3, .f32⟩
  | 114 => ⟨S3300000x3, .f32⟩
  | 115 => ⟨S_, .f32⟩
  | 116 => ⟨S100000x3, .f32⟩
  | 117 => ⟨S3300000x1, .i32⟩
  | 118 => ⟨S100000x3, .f32⟩
  | 119 => ⟨S1x3, .f32⟩
  | 120 => ⟨S100000x3, .f32⟩
  | 121 => ⟨S100000x3, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x500, .f32⟩

abbrev hbmTy0_1 (i : Nat) : BufTy := match i % 128 with
  | 0 => ⟨S100000x3, .f32⟩
  | 1 => ⟨S100000x3, .f32⟩
  | 2 => ⟨S100000x3, .f32⟩
  | 3 => ⟨S_, .f32⟩
  | 4 => ⟨S100000, .f32⟩
  | 5 => ⟨S100000x1, .f32⟩
  | 6 => ⟨S100000x1, .f32⟩
  | 7 => ⟨S100000x3, .f32⟩
  | 8 => ⟨S100000x3, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  reducesTo_S100000x3_S100000_d1 : S100000x3.ReducesTo [1] S100000
  h_S_ : 0 < S_.numel
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  dot_S100000x500_S500x16_S100000x16_1_0_0_1_n_n_wf : DotDims.WF S100000x500 S500x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x3_S100000x3_1_0_0_1_n_n_wf : DotDims.WF S100000x16 S16x3 S100000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1

variable [Facts₀]

def dot_S100000x500_S500x16_S100000x16_1_0_0_1_n_n : DotDims S100000x500 S500x16 S100000x16 where
  lhsContracting := [1]
  rhsContracting := [0]
  lhsNonContracting := [0]
  rhsNonContracting := [1]
  lhsBatch := []
  rhsBatch := []
  wf := dot_S100000x500_S500x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x3_S100000x3_1_0_0_1_n_n : DotDims S100000x16 S16x3 S100000x3 where
  lhsContracting := [1]
  rhsContracting := [0]
  lhsNonContracting := [0]
  rhsNonContracting := [1]
  lhsBatch := []
  rhsBatch := []
  wf := dot_S100000x16_S16x3_S100000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf

class Facts : Prop extends Facts₀ where

variable [Facts]
-- ==== Proof.KernelRun.lean ====
/-
  The idealized kernel's run with its RESULT named. @main is four TensorCore regions among stretches of host
  operations; the buffer contents at each boundary are the fold `Gen.W0 … Gen.W9` (a stretch's operations applied,
  a region's arrays at what its write-backs leave). Every weakly fair execution terminates, nothing faulting, with
  the result buffer at `Gen.W9` read at the result's reference and the six argument arrays as launched: the launch
  over the program's segments, the last thread state (every unscoped buffer at `W9`) read against the final state.
-/
import proofs.«121444_j25907242729542_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the arguments end as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.Spec.lean ====
/-
  The four dense stages of a two-layer graph convolution, each as ONE function of whole arrays, index by index, on
  the extended reals. Between them both programs apply the same normalised neighbour aggregation (a gather along the
  edge list, a product with the edge weight, a scatter-add into the destination rows), which this file does not open.

    project₁ x w   (r, j) ↦ ∑ k, x(r, k) · w(k, j)                    100000×500 by 500×16
    biasRelu a b   (r, j) ↦ max (a(r, j) + b(0, j)) 0                 the bias a one-row matrix
    project₂ a w   (r, j) ↦ ∑ k, a(r, k) · w(k, j)                    100000×16 by 16×3
    biasLogSoftmax a b   with l(j) = a(r, j) + b(0, j) and M = the maximum of l over the three classes (from −∞):
                   (r, j) ↦ (l(j) − M) − log (∑ j', exp (l(j') − M))

  Sums and maxima over a row are over `Fin` of the literal extent; no law of arithmetic is used anywhere: a block
  of rows of each stage is the stage of the block, since every entry depends on its own row only.
-/
import Idealize.ShloMosaic.PureOps.Ideal
import Idealize.ShloMosaic.Lib.ValueIdx

noncomputable section

namespace Cert.Spec

open Idealize.ShloMosaic Idealize.ShloMosaic.ValueIdx

/-- The first projection: row `r` of `x` against column `j` of `w`. -/
def project₁ (x : (⟨2, ![100000, 500]⟩ : Shape).Idx → EReal) (w : (⟨2, ![500, 16]⟩ : Shape).Idx → EReal) :
    (⟨2, ![100000, 16]⟩ : Shape).Idx → EReal :=
  fun i => ∑ k : Fin 500, x (ix2 (i 0) k) * w (ix2 k (i 1))

/-- The second projection: row `r` of `a` against column `j` of `w`. -/
def project₂ (a : (⟨2, ![100000, 16]⟩ : Shape).Idx → EReal) (w : (⟨2, ![16, 3]⟩ : Shape).Idx → EReal) :
    (⟨2, ![100000, 3]⟩ : Shape).Idx → EReal :=
  fun i => ∑ k : Fin 16, a (ix2 (i 0) k) * w (ix2 k (i 1))

/-- The bias (a one-row matrix) added along every row, then the positive part. -/
def biasRelu (a : (⟨2, ![100000, 16]⟩ : Shape).Idx → EReal) (b : (⟨2, ![1, 16]⟩ : Shape).Idx → EReal) :
    (⟨2, ![100000, 16]⟩ : Shape).Idx → EReal :=
  fun i => max (a i + b (ix2 0 (i 1))) (Ideal.ofBits .f32 0x00000000#32)

/-- Row `r`'s three logits: the aggregated features plus the bias. -/
def logits (a : (⟨2, ![100000, 3]⟩ : Shape).Idx → EReal) (b : (⟨2, ![1, 3]⟩ : Shape).Idx → EReal) (r : Fin 100000) :
    Fin 3 → EReal :=
  fun j => a (ix2 r j) + b (ix2 0 j)

/-- The maximum of three values, folded from −∞ (the pattern `0xFF800000`). -/
def max₃ (l : Fin 3 → EReal) : EReal :=
  (Finset.univ : Finset (Fin 3)).fold max (Ideal.ofBits .f32 0xFF800000#32) l

/-- The log-softmax of a row's logits, shifted by the row's maximum. -/
def biasLogSoftmax (a : (⟨2, ![100000, 3]⟩ : Shape).Idx → EReal) (b : (⟨2, ![1, 3]⟩ : Shape).Idx → EReal) :
    (⟨2, ![100000, 3]⟩ : Shape).Idx → EReal :=
  fun i => (logits a b (i 0) (i 1) - max₃ (logits a b (i 0)))
    - Ideal.log (∑ j : Fin 3, Ideal.exp (logits a b (i 0) j - max₃ (logits a b (i 0))))

end Cert.Spec

end
-- ==== Proof.Region0.lean ====
/-
  Region 0: the first projection, fifty blocks of 2000 rows. At a grid point the body multiplies its block of the left array
  (2000×500) by the whole of the right one (500×16) into a zero accumulator; a change of float format is the identity on
  the extended reals, so entry (p, q) of what it stores is ∑ k, a(2000·t + p, k) · w(k, q): block `t` of the product of
  the whole arrays, every entry of which depends on its own row of the left array only. The blocks tile the 100000
  rows, so the region's result array is the product.
-/
import proofs.«121444_j25907242729542_1_alg».proof.Proof.Gen.KernelIdeal.Frame
import proofs.«121444_j25907242729542_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem off0_zero : (![0, 0] : Fin 2 → Nat) = fun _ => 0 := funext fun a => by fin_cases a <;> rfl

/-- The body's stored value at (p, q): row p of the left block against column q of the right one. -/
theorem pay0_apply (x0 : Vec Ideal S2000x500 .f32) (x1 : Vec Ideal S500x16 .f32) (p : Fin 2000) (q : Fin 16) :
    k0_pay1 (F := Ideal) x0 x1 (ix2 p q) = ∑ k : Fin 500, x0 (ix2 p k) * x1 (ix2 k q) := by
  unfold k0_pay1
  simp only [matmul]
  rw [Ideal.matmul_constant_zero_apply, ← Equiv.sum_comp (contrEquiv1 dot_S2000x500_S500x16_S2000x16_1_0_0_1_n_n 500 rfl rfl).symm]
  refine Finset.sum_congr rfl fun k _ => ?_
  have hk := contrEquiv1_symm_val dot_S2000x500_S500x16_S2000x16_1_0_0_1_n_n 500 rfl rfl k
  have el : dot_S2000x500_S500x16_S2000x16_1_0_0_1_n_n.lhsIdx (ix2 p q) ((contrEquiv1 dot_S2000x500_S500x16_S2000x16_1_0_0_1_n_n 500 rfl rfl).symm k) = ix2 p k := funext fun a => Fin.ext (by
    match a with
    | ⟨0, _⟩ =>
      show (dot_S2000x500_S500x16_S2000x16_1_0_0_1_n_n.lhsIdx (ix2 p q) _ 0).val = p.val
      unfold DotDims.lhsIdx
      rw [dif_neg (show ¬(0 : Fin S2000x500.rank) ∈ dot_S2000x500_S500x16_S2000x16_1_0_0_1_n_n.lhsBatch by decide), dif_pos (show (0 : Fin S2000x500.rank) ∈ dot_S2000x500_S500x16_S2000x16_1_0_0_1_n_n.lhsNonContracting by decide)]
      rfl
    | ⟨1, _⟩ => exact (dot_S2000x500_S500x16_S2000x16_1_0_0_1_n_n.lhsIdx_val_of_single rfl (ix2 p q) _).trans hk)
  have er : dot_S2000x500_S500x16_S2000x16_1_0_0_1_n_n.rhsIdx (ix2 p q) ((contrEquiv1 dot_S2000x500_S500x16_S2000x16_1_0_0_1_n_n 500 rfl rfl).symm k) = ix2 k q := funext fun a => Fin.ext (by
    match a with
    | ⟨0, _⟩ => exact (dot_S2000x500_S500x16_S2000x16_1_0_0_1_n_n.rhsIdx_val_of_single rfl (ix2 p q) _).trans hk
    | ⟨1, _⟩ =>
      show (dot_S2000x500_S500x16_S2000x16_1_0_0_1_n_n.rhsIdx (ix2 p q) _ 1).val = q.val
      unfold DotDims.rhsIdx
      rw [dif_neg (show ¬(1 : Fin S500x16.rank) ∈ dot_S2000x500_S500x16_S2000x16_1_0_0_1_n_n.rhsBatch by decide), dif_pos (show (1 : Fin S500x16.rank) ∈ dot_S2000x500_S500x16_S2000x16_1_0_0_1_n_n.rhsNonContracting by decide)]
      rfl)
  show x0 (dot_S2000x500_S500x16_S2000x16_1_0_0_1_n_n.lhsIdx (ix2 p q) _) * x1 (dot_S2000x500_S500x16_S2000x16_1_0_0_1_n_n.rhsIdx (ix2 p q) _) = _
  rw [el, er]

/-- The printed index maps, decided over the grid: the left window and the result window are at block (t, 0), the
    right window always at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays as the region finds them. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Spec.project₁ (V c main_arg0) (V c main_arg2)) := by
  show (cfg0.win 2).cut (grid0.coords t) ((dat0 V c).after 2 t) = _
  rw [after0_2]
  unfold out0_2
  rw [View.canon_unit_zero off0_zero]
  simp only [View.ld_unit_zero (S := S2000x500) off0_zero, View.ld_unit_zero (S := S500x16) off0_zero]
  obtain ⟨e0, e1, e2, e3, e4, e5⟩ := idx_facts0 t
  funext j
  obtain ⟨p, q, rfl⟩ : ∃ (p : Fin 2000) (q : Fin 16), j = ix2 p q := ⟨j 0, j 1, eq_ix2 j⟩
  refine (pay0_apply (iblk0 V c 0 t) (iblk0 V c 1 t) p q).trans ?_
  show _ = Cert.Spec.project₁ (V c main_arg0) (V c main_arg2) (((cfg0.win 2).blk t).view.emb (ix2 p q))
  unfold Cert.Spec.project₁
  refine Finset.sum_congr rfl fun k _ => ?_
  have h0 : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 500 + 1 * k.val = k.val; omega
  have h1 : iblk0 V c 1 t (ix2 k q) = V c main_arg2 (ix2 k ((((cfg0.win 2).blk t).view.emb (ix2 p q)) 1)) := by
    show V c main_arg2 (((cfg0.win 1).blk t).view.emb (ix2 k q)) = _
    refine congrArg (V c main_arg2) (funext fun a => Fin.ext ?_)
    match a with
    | ⟨0, _⟩ => show win0_1.index t (0 : Fin 2) * 500 + 1 * k.val = k.val; omega
    | ⟨1, _⟩ => show win0_1.index t (1 : Fin 2) * 16 + 1 * q.val = win0_2.index t (1 : Fin 2) * 16 + 1 * q.val; omega
  rw [h0, h1]

/-- An index of the result array is in point `t`'s block iff each coordinate is in the block's range on its axis. -/
theorem mem_blk0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v30).slice (win0_2.rect t)).set ↔ _
  rw [View.set_slice_whole, Rect.mem_set_unit]
  exact Iff.rfl

/-- Row `r` is in the block of point `r / 2000`: the fifty blocks tile the array. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := N_0
  have ht : (i 0).val / 2000 < cfg0.N := by rw [hN]; omega
  refine ⟨⟨(i 0).val / 2000, ht⟩, flush0_2 _, ?_⟩
  rw [mem_blk0]
  obtain ⟨-, -, -, -, e4, e5⟩ := idx_facts0 ⟨(i 0).val / 2000, ht⟩
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 16 ≤ (i 1).val ∧ (i 1).val < win0_2.index ⟨(i 0).val / 2000, ht⟩ (1 : Fin 2) * 16 + 16
    rw [e5]; omega

/-- The region's result array, after its fifty write-backs, is the product of the arrays it was entered with. -/
theorem region0 (V : (c : Dev nD) → (b : Ref sig .tc) → Buf (Elt Ideal) ((c : Thread nD τ).loc b)) (c : Dev nD) :
    (dat0 (F := Ideal) V c).arrAt 2 cfg0.N = Cert.Spec.project₁ (V c main_arg0) (V c main_arg2) :=
  (dat0 (F := Ideal) V c).arrAt_eq_of_cover 2 _ (fun t _ => flushed0_eq V c t) cover0

end Cert.KernelIdeal.Regions

end
-- ==== Proof.Region1.lean ====
/-
  Region 1: the bias and the positive part, fifty blocks of 2000 rows. At a grid point the body adds the one-row bias
  to every row of its block of the aggregated features and takes the maximum with zero, entry by entry; entry (p, q)
  of what it stores is max (a(2000·t + p, q) + b(0, q)) 0, block `t` of the same function of the whole arrays. The
  blocks tile the 100000 rows, so the region's result array is that function of the arrays it was entered with.
-/
import proofs.«121444_j25907242729542_1_alg».proof.Proof.Gen.KernelIdeal.Frame
import proofs.«121444_j25907242729542_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem off1_zero : (![0, 0] : Fin 2 → Nat) = fun _ => 0 := funext fun a => by fin_cases a <;> rfl

/-- The body's stored value at (p, q): the block's entry plus the bias of its column, or zero if that is negative. -/
theorem pay1_apply (x0 : Vec Ideal S2000x16 .f32) (x1 : Vec Ideal S1x16 .f32) (p : Fin 2000) (q : Fin 16) :
    k1_pay1 (F := Ideal) x0 x1 (ix2 p q) = max (x0 (ix2 p q) + x1 (ix2 0 q)) (Ideal.ofBits .f32 0x00000000#32) := by
  unfold k1_pay1
  simp only [shapeCast_self]
  show max (x0 (ix2 p q) + broadcastTo S2000x16 x1 broadcasts_S1x16_S2000x16 (ix2 p q)) (Ideal.ofBits .f32 0x00000000#32) = _
  rw [broadcastTo_apply x1 broadcasts_S1x16_S2000x16 (ix2 p q) (ix2 0 q) (fun a => by match a with | ⟨0, _⟩ => rfl | ⟨1, _⟩ => rfl)]

/-- The printed index maps, decided over the grid: the row window and the result window are at block (t, 0), the
    bias window always at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the biased positive part of the arrays as the region finds them. -/
theorem flushed1_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Spec.biasRelu (V c main_v43) (V c main_v44)) := by
  show (cfg1.win 2).cut (grid1.coords t) ((dat1 V c).after 2 t) = _
  rw [after1_2]
  unfold out1_2
  rw [View.canon_unit_zero off1_zero]
  simp only [View.ld_unit_zero (S := S2000x16) off1_zero, View.ld_unit_zero (S := S1x16) off1_zero]
  obtain ⟨e0, e1, e2, e3, e4, e5⟩ := idx_facts1 t
  funext j
  obtain ⟨p, q, rfl⟩ : ∃ (p : Fin 2000) (q : Fin 16), j = ix2 p q := ⟨j 0, j 1, eq_ix2 j⟩
  refine (pay1_apply (iblk1 V c 0 t) (iblk1 V c 1 t) p q).trans ?_
  show _ = Cert.Spec.biasRelu (V c main_v43) (V c main_v44) (((cfg1.win 2).blk t).view.emb (ix2 p q))
  unfold Cert.Spec.biasRelu
  have h0 : iblk1 V c 0 t (ix2 p q) = V c main_v43 (((cfg1.win 2).blk t).view.emb (ix2 p q)) := by
    show V c main_v43 (((cfg1.win 0).blk t).view.emb (ix2 p q)) = _
    refine congrArg (V c main_v43) (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 16 + 1 * q.val = win1_2.index t (1 : Fin 2) * 16 + 1 * q.val; omega
  have h1 : iblk1 V c 1 t (ix2 0 q) = V c main_v44 (ix2 0 ((((cfg1.win 2).blk t).view.emb (ix2 p q)) 1)) := by
    show V c main_v44 (((cfg1.win 1).blk t).view.emb (ix2 0 q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 16 + 1 * q.val = win1_2.index t (1 : Fin 2) * 16 + 1 * q.val; omega
  rw [h0, h1]

/-- An index of the result array is in point `t`'s block iff each coordinate is in the block's range on its axis. -/
theorem mem_blk1 (t : Fin cfg1.N) (i : S100000x16.Idx) :
    i ∈ ((cfg1.win 2).blk t).view.set ↔ ∀ a : Fin 2, win1_2.index t a * S2000x16.size a ≤ (i a).val ∧ (i a).val < win1_2.index t a * S2000x16.size a + S2000x16.size a := by
  show i ∈ ((View.whole main_v45).slice (win1_2.rect t)).set ↔ _
  rw [View.set_slice_whole, Rect.mem_set_unit]
  exact Iff.rfl

/-- Row `r` is in the block of point `r / 2000`: the fifty blocks tile the array. -/
theorem cover1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 50 := N_1
  have ht : (i 0).val / 2000 < cfg1.N := by rw [hN]; omega
  refine ⟨⟨(i 0).val / 2000, ht⟩, flush1_2 _, ?_⟩
  rw [mem_blk1]
  obtain ⟨-, -, -, -, e4, e5⟩ := idx_facts1 ⟨(i 0).val / 2000, ht⟩
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 16 ≤ (i 1).val ∧ (i 1).val < win1_2.index ⟨(i 0).val / 2000, ht⟩ (1 : Fin 2) * 16 + 16
    rw [e5]; omega

/-- The region's result array, after its fifty write-backs, is the stage applied to the arrays it was entered with. -/
theorem region1 (V : (c : Dev nD) → (b : Ref sig .tc) → Buf (Elt Ideal) ((c : Thread nD τ).loc b)) (c : Dev nD) :
    (dat1 (F := Ideal) V c).arrAt 2 cfg1.N = Cert.Spec.biasRelu (V c main_v43) (V c main_v44) :=
  (dat1 (F := Ideal) V c).arrAt_eq_of_cover 2 _ (fun t _ => flushed1_eq V c t) cover1

end Cert.KernelIdeal.Regions

end
-- ==== Proof.Region2.lean ====
/-
  Region 2: the second projection, fifty blocks of 2000 rows. At a grid point the body multiplies its block of the left array
  (2000×16, through a cast to its own shape) by the whole of the right one (16×3) into a zero accumulator; a change of float format is the identity on
  the extended reals, so entry (p, q) of what it stores is ∑ k, a(2000·t + p, k) · w(k, q): block `t` of the product of
  the whole arrays, every entry of which depends on its own row of the left array only. The blocks tile the 100000
  rows, so the region's result array is the product.
-/
import proofs.«121444_j25907242729542_1_alg».proof.Proof.Gen.KernelIdeal.Frame
import proofs.«121444_j25907242729542_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem off2_zero : (![0, 0] : Fin 2 → Nat) = fun _ => 0 := funext fun a => by fin_cases a <;> rfl

/-- The body's stored value at (p, q): row p of the left block against column q of the right one. -/
theorem pay2_apply (x0 : Vec Ideal S2000x16 .f32) (x1 : Vec Ideal S16x3 .f32) (p : Fin 2000) (q : Fin 3) :
    k2_pay1 (F := Ideal) x0 x1 (ix2 p q) = ∑ k : Fin 16, x0 (ix2 p k) * x1 (ix2 k q) := by
  unfold k2_pay1
  simp only [matmul, shapeCast_self]
  rw [Ideal.matmul_constant_zero_apply, ← Equiv.sum_comp (contrEquiv1 dot_S2000x16_S16x3_S2000x3_1_0_0_1_n_n 16 rfl rfl).symm]
  refine Finset.sum_congr rfl fun k _ => ?_
  have hk := contrEquiv1_symm_val dot_S2000x16_S16x3_S2000x3_1_0_0_1_n_n 16 rfl rfl k
  have el : dot_S2000x16_S16x3_S2000x3_1_0_0_1_n_n.lhsIdx (ix2 p q) ((contrEquiv1 dot_S2000x16_S16x3_S2000x3_1_0_0_1_n_n 16 rfl rfl).symm k) = ix2 p k := funext fun a => Fin.ext (by
    match a with
    | ⟨0, _⟩ =>
      show (dot_S2000x16_S16x3_S2000x3_1_0_0_1_n_n.lhsIdx (ix2 p q) _ 0).val = p.val
      unfold DotDims.lhsIdx
      rw [dif_neg (show ¬(0 : Fin S2000x16.rank) ∈ dot_S2000x16_S16x3_S2000x3_1_0_0_1_n_n.lhsBatch by decide), dif_pos (show (0 : Fin S2000x16.rank) ∈ dot_S2000x16_S16x3_S2000x3_1_0_0_1_n_n.lhsNonContracting by decide)]
      rfl
    | ⟨1, _⟩ => exact (dot_S2000x16_S16x3_S2000x3_1_0_0_1_n_n.lhsIdx_val_of_single rfl (ix2 p q) _).trans hk)
  have er : dot_S2000x16_S16x3_S2000x3_1_0_0_1_n_n.rhsIdx (ix2 p q) ((contrEquiv1 dot_S2000x16_S16x3_S2000x3_1_0_0_1_n_n 16 rfl rfl).symm k) = ix2 k q := funext fun a => Fin.ext (by
    match a with
    | ⟨0, _⟩ => exact (dot_S2000x16_S16x3_S2000x3_1_0_0_1_n_n.rhsIdx_val_of_single rfl (ix2 p q) _).trans hk
    | ⟨1, _⟩ =>
      show (dot_S2000x16_S16x3_S2000x3_1_0_0_1_n_n.rhsIdx (ix2 p q) _ 1).val = q.val
      unfold DotDims.rhsIdx
      rw [dif_neg (show ¬(1 : Fin S16x3.rank) ∈ dot_S2000x16_S16x3_S2000x3_1_0_0_1_n_n.rhsBatch by decide), dif_pos (show (1 : Fin S16x3.rank) ∈ dot_S2000x16_S16x3_S2000x3_1_0_0_1_n_n.rhsNonContracting by decide)]
      rfl)
  show x0 (dot_S2000x16_S16x3_S2000x3_1_0_0_1_n_n.lhsIdx (ix2 p q) _) * x1 (dot_S2000x16_S16x3_S2000x3_1_0_0_1_n_n.rhsIdx (ix2 p q) _) = _
  rw [el, er]

/-- The printed index maps, decided over the grid: the left window and the result window are at block (t, 0), the
    right window always at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the arrays as the region finds them. -/
theorem flushed2_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.Spec.project₂ (V c main_v45) (V c main_arg4)) := by
  show (cfg2.win 2).cut (grid2.coords t) ((dat2 V c).after 2 t) = _
  rw [after2_2]
  unfold out2_2
  rw [View.canon_unit_zero off2_zero]
  simp only [View.ld_unit_zero (S := S2000x16) off2_zero, View.ld_unit_zero (S := S16x3) off2_zero]
  obtain ⟨e0, e1, e2, e3, e4, e5⟩ := idx_facts2 t
  funext j
  obtain ⟨p, q, rfl⟩ : ∃ (p : Fin 2000) (q : Fin 3), j = ix2 p q := ⟨j 0, j 1, eq_ix2 j⟩
  refine (pay2_apply (iblk2 V c 0 t) (iblk2 V c 1 t) p q).trans ?_
  show _ = Cert.Spec.project₂ (V c main_v45) (V c main_arg4) (((cfg2.win 2).blk t).view.emb (ix2 p q))
  unfold Cert.Spec.project₂
  refine Finset.sum_congr rfl fun k _ => ?_
  have h0 : iblk2 V c 0 t (ix2 p k) = V c main_v45 (ix2 ((((cfg2.win 2).blk t).view.emb (ix2 p q)) 0) k) := by
    show V c main_v45 (((cfg2.win 0).blk t).view.emb (ix2 p k)) = _
    refine congrArg (V c main_v45) (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 16 + 1 * k.val = k.val; omega
  have h1 : iblk2 V c 1 t (ix2 k q) = V c main_arg4 (ix2 k ((((cfg2.win 2).blk t).view.emb (ix2 p q)) 1)) := by
    show V c main_arg4 (((cfg2.win 1).blk t).view.emb (ix2 k q)) = _
    refine congrArg (V c main_arg4) (funext fun a => Fin.ext ?_)
    match a with
    | ⟨0, _⟩ => show win2_1.index t (0 : Fin 2) * 16 + 1 * k.val = k.val; omega
    | ⟨1, _⟩ => show win2_1.index t (1 : Fin 2) * 3 + 1 * q.val = win2_2.index t (1 : Fin 2) * 3 + 1 * q.val; omega
  rw [h0, h1]

/-- An index of the result array is in point `t`'s block iff each coordinate is in the block's range on its axis. -/
theorem mem_blk2 (t : Fin cfg2.N) (i : S100000x3.Idx) :
    i ∈ ((cfg2.win 2).blk t).view.set ↔ ∀ a : Fin 2, win2_2.index t a * S2000x3.size a ≤ (i a).val ∧ (i a).val < win2_2.index t a * S2000x3.size a + S2000x3.size a := by
  show i ∈ ((View.whole main_v46).slice (win2_2.rect t)).set ↔ _
  rw [View.set_slice_whole, Rect.mem_set_unit]
  exact Iff.rfl

/-- Row `r` is in the block of point `r / 2000`: the fifty blocks tile the array. -/
theorem cover2 (i : S100000x3.Idx) :
    ∃ t : Fin cfg2.N, (cfg2.win 2).flush t = true ∧ i ∈ ((cfg2.win 2).blk t).view.set := by
  have hi0 : (i 0).val < 100000 := (i 0).isLt
  have hi1 : (i 1).val < 3 := (i 1).isLt
  have hN : cfg2.N = 50 := N_2
  have ht : (i 0).val / 2000 < cfg2.N := by rw [hN]; omega
  refine ⟨⟨(i 0).val / 2000, ht⟩, flush2_2 _, ?_⟩
  rw [mem_blk2]
  obtain ⟨-, -, -, -, e4, e5⟩ := idx_facts2 ⟨(i 0).val / 2000, ht⟩
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ (1 : Fin 2) * 3 ≤ (i 1).val ∧ (i 1).val < win2_2.index ⟨(i 0).val / 2000, ht⟩ (1 : Fin 2) * 3 + 3
    rw [e5]; omega

/-- The region's result array, after its fifty write-backs, is the product of the arrays it was entered with. -/
theorem region2 (V : (c : Dev nD) → (b : Ref sig .tc) → Buf (Elt Ideal) ((c : Thread nD τ).loc b)) (c : Dev nD) :
    (dat2 (F := Ideal) V c).arrAt 2 cfg2.N = Cert.Spec.project₂ (V c main_v45) (V c main_arg4) :=
  (dat2 (F := Ideal) V c).arrAt_eq_of_cover 2 _ (fun t _ => flushed2_eq V c t) cover2

end Cert.KernelIdeal.Regions

end
-- ==== Proof.Region3.lean ====
/-
  Region 3: the bias and the log-softmax, fifty blocks of 2000 rows. At a grid point the body adds the one-row bias to
  every row of its block, takes each row's maximum M over the three classes (a lane reduction from −∞), subtracts it,
  exponentiates, sums each row (a lane reduction from zero), takes the logarithm and subtracts that: with
  l(j) = a(2000·t + p, j) + b(0, j), entry (p, q) of what it stores is (l(q) − M) − log (∑ j, exp (l(j) − M)).
  A row's maximum and sum are kept as a one-column matrix and laid back along the three columns; every entry depends
  on its own row only, so what is stored is block `t` of the same function of the whole arrays, and the blocks tile the
  100000 rows.
-/
import proofs.«121444_j25907242729542_1_alg».proof.Proof.Gen.KernelIdeal.Frame
import proofs.«121444_j25907242729542_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem off3_zero : (![0, 0] : Fin 2 → Nat) = fun _ => 0 := funext fun a => by fin_cases a <;> rfl

/-- The one-row bias added along every row, at (p, j). -/
theorem rowBias_apply (x0 : FVec Ideal S2000x3 .f32) (x1 : FVec Ideal S1x3 .f32) (p : Fin 2000) (j : Fin 3) :
    addf x0 (broadcastTo S2000x3 x1 broadcasts_S1x3_S2000x3) (ix2 p j) = x0 (ix2 p j) + x1 (ix2 0 j) := by
  show x0 (ix2 p j) + broadcastTo S2000x3 x1 broadcasts_S1x3_S2000x3 (ix2 p j) = _
  rw [broadcastTo_apply x1 broadcasts_S1x3_S2000x3 (ix2 p j) (ix2 0 j) (fun a => by match a with | ⟨0, _⟩ => rfl | ⟨1, _⟩ => rfl)]

/-- A one-column matrix laid along the three columns, at (p, q): its entry of row p. -/
theorem column_apply (u : FVec Ideal S2000x1 .f32) (p : Fin 2000) (q : Fin 3) :
    broadcastTo S2000x3 u broadcasts_S2000x1_S2000x3 (ix2 p q) = u (ix2 p 0) :=
  broadcastTo_apply u broadcasts_S2000x1_S2000x3 (ix2 p q) (ix2 p 0) (fun a => by match a with | ⟨0, _⟩ => rfl | ⟨1, _⟩ => rfl)

/-- A vector of 2000 kept as a one-column matrix, at (p, 0): its entry p. -/
theorem keep_apply (u : FVec Ideal S2000 .f32) (p : Fin 2000) :
    shapeCast S2000x1 u shapeCasts_S2000_S2000x1 (ix2 p 0) = u (ix1 p) :=
  shapeCast_apply u shapeCasts_S2000_S2000x1 (ix2 p 0) (ix1 p) (by
    rw [Shape.rowMajor_val_one, Shape.rowMajor_val_two]; show p.val = p.val * 1 + 0; omega)

/-- Row p with the class coordinate k put back is (p, k). -/
theorem lift_row (p : Fin 2000) (k : Fin 3) : reduces_S2000x3_S2000.lift (ix1 p) k = ix2 p k := by
  funext c; apply Fin.ext; fin_cases c <;> rfl

/-- A row's maximum over the three classes, from −∞. -/
theorem rowMax_apply (v : FVec Ideal S2000x3 .f32) (hφ : FKind.Formats .f32)
    (hacc : (0xFF800000#32 : BitVec 32) = FKind.maximumf.neutral .f32 hφ) (p : Fin 2000) :
    multiReduction .maximumf [1] S2000 v 0xFF800000#32 reduces_S2000x3_S2000 hφ hacc (ix1 p)
      = Cert.Spec.max₃ (fun j => v (ix2 p j)) := by
  refine (Ideal.multiReduction_maximumf_single v 0xFF800000#32 reduces_S2000x3_S2000 hφ hacc (ix1 p)).trans ?_
  unfold Cert.Spec.max₃
  exact congrArg (fun f : Fin 3 → EReal => (Finset.univ : Finset (Fin 3)).fold max (Ideal.ofBits .f32 0xFF800000#32) f)
    (funext fun k => congrArg v (lift_row p k))

/-- A row's sum over the three classes. -/
theorem rowSum_apply (v : FVec Ideal S2000x3 .f32) (hφ : FKind.Formats .f32)
    (hacc : (0x00000000#32 : BitVec 32) = FKind.add.neutral .f32 hφ) (p : Fin 2000) :
    multiReduction .add [1] S2000 v 0x00000000#32 reduces_S2000x3_S2000 hφ hacc (ix1 p)
      = ∑ j : Fin 3, v (ix2 p j) := by
  refine (Ideal.multiReduction_add_single v 0x00000000#32 reduces_S2000x3_S2000 hφ hacc (ix1 p)).trans ?_
  exact Finset.sum_congr rfl fun k _ => congrArg v (lift_row p k)

theorem exp_apply (v : FVec Ideal S2000x3 .f32) (i : S2000x3.Idx) : exp v i = Ideal.exp (v i) := rfl
theorem log_apply (v : FVec Ideal S2000x1 .f32) (i : S2000x1.Idx) : log v i = Ideal.log (v i) := rfl
theorem sub_apply (a b : FVec Ideal S2000x3 .f32) (i : S2000x3.Idx) : subf a b i = a i - b i := rfl

/-- The shifted log-softmax of a block `L` of logits at (p, q): the operations as the body applies them — the row maxima
    and the row sums kept as one-column matrices and laid back along the columns — read entry by entry. -/
theorem logSoftmax_apply (L : FVec Ideal S2000x3 .f32) (hφ : FKind.Formats .f32)
    (hm : (0xFF800000#32 : BitVec 32) = FKind.maximumf.neutral .f32 hφ) (ha : (0x00000000#32 : BitVec 32) = FKind.add.neutral .f32 hφ)
    (p : Fin 2000) (q : Fin 3) :
    subf (subf L (broadcastTo S2000x3 (shapeCast S2000x1 (multiReduction .maximumf [1] S2000 L 0xFF800000#32 reduces_S2000x3_S2000 hφ hm) shapeCasts_S2000_S2000x1) broadcasts_S2000x1_S2000x3))
      (broadcastTo S2000x3 (log (shapeCast S2000x1 (multiReduction .add [1] S2000 (exp (subf L (broadcastTo S2000x3 (shapeCast S2000x1 (multiReduction .maximumf [1] S2000 L 0xFF800000#32 reduces_S2000x3_S2000 hφ hm) shapeCasts_S2000_S2000x1) broadcasts_S2000x1_S2000x3))) 0x00000000#32 reduces_S2000x3_S2000 hφ ha) shapeCasts_S2000_S2000x1)) broadcasts_S2000x1_S2000x3)
      (ix2 p q)
    = (L (ix2 p q) - Cert.Spec.max₃ (fun j => L (ix2 p j)))
      - Ideal.log (∑ j : Fin 3, Ideal.exp (L (ix2 p j) - Cert.Spec.max₃ (fun j => L (ix2 p j)))) := by
  have hMp := rowMax_apply L hφ hm p
  generalize multiReduction .maximumf [1] S2000 L 0xFF800000#32 reduces_S2000x3_S2000 hφ hm = Mx at hMp ⊢
  have hSh : ∀ j : Fin 3, subf L (broadcastTo S2000x3 (shapeCast S2000x1 Mx shapeCasts_S2000_S2000x1) broadcasts_S2000x1_S2000x3) (ix2 p j)
      = L (ix2 p j) - Cert.Spec.max₃ (fun j => L (ix2 p j)) := fun j => by
    show L (ix2 p j) - broadcastTo S2000x3 (shapeCast S2000x1 Mx shapeCasts_S2000_S2000x1) broadcasts_S2000x1_S2000x3 (ix2 p j) = _
    rw [column_apply, keep_apply, hMp]
  generalize subf L (broadcastTo S2000x3 (shapeCast S2000x1 Mx shapeCasts_S2000_S2000x1) broadcasts_S2000x1_S2000x3) = Sh at hSh ⊢
  have hAp := rowSum_apply (exp Sh) hφ ha p
  generalize multiReduction .add [1] S2000 (exp Sh) 0x00000000#32 reduces_S2000x3_S2000 hφ ha = Ax at hAp ⊢
  show Sh (ix2 p q) - broadcastTo S2000x3 (log (shapeCast S2000x1 Ax shapeCasts_S2000_S2000x1)) broadcasts_S2000x1_S2000x3 (ix2 p q) = _
  rw [column_apply]
  show Sh (ix2 p q) - Ideal.log (shapeCast S2000x1 Ax shapeCasts_S2000_S2000x1 (ix2 p 0)) = _
  rw [keep_apply, hAp, hSh]
  exact congrArg (fun s => _ - Ideal.log s) (Finset.sum_congr rfl fun j _ => by
    show Ideal.exp (Sh (ix2 p j)) = _
    rw [hSh])

/-- The body's stored value at (p, q), with l(j) = x0(p, j) + x1(0, j). -/
theorem pay3_apply (x0 : Vec Ideal S2000x3 .f32) (x1 : Vec Ideal S1x3 .f32) (p : Fin 2000) (q : Fin 3) :
    k3_pay1 (F := Ideal) x0 x1 (ix2 p q)
      = ((x0 (ix2 p q) + x1 (ix2 0 q)) - Cert.Spec.max₃ (fun j => x0 (ix2 p j) + x1 (ix2 0 j)))
        - Ideal.log (∑ j : Fin 3, Ideal.exp ((x0 (ix2 p j) + x1 (ix2 0 j)) - Cert.Spec.max₃ (fun j => x0 (ix2 p j) + x1 (ix2 0 j)))) := by
  unfold k3_pay1
  simp only [shapeCast_self]
  refine (logSoftmax_apply (addf x0 (broadcastTo S2000x3 x1 broadcasts_S1x3_S2000x3)) _ _ _ p q).trans ?_
  simp only [rowBias_apply]

/-- The printed index maps, decided over the grid: the row window and the result window are at block (t, 0), the
    bias window always at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A block's biased row is the array's biased row, when the block's row p is the array's row R. -/
theorem row_logits (a : S100000x3.Idx → EReal) (b : S1x3.Idx → EReal) (x0 : S2000x3.Idx → EReal) (x1 : S1x3.Idx → EReal)
    (R : Fin 100000) (p : Fin 2000) (h0 : ∀ j : Fin 3, x0 (ix2 p j) = a (ix2 R j)) (h1 : ∀ j : Fin 3, x1 (ix2 0 j) = b (ix2 0 j)) :
    (fun j : Fin 3 => x0 (ix2 p j) + x1 (ix2 0 j)) = Cert.Spec.logits a b R :=
  funext fun j => by unfold Cert.Spec.logits; rw [h0, h1]

/-- The biased log-softmax at (R, q), spelt out. -/
theorem biasLogSoftmax_apply (a : S100000x3.Idx → EReal) (b : S1x3.Idx → EReal) (R : Fin 100000) (q : Fin 3) :
    Cert.Spec.biasLogSoftmax a b (ix2 R q)
      = (Cert.Spec.logits a b R q - Cert.Spec.max₃ (Cert.Spec.logits a b R))
        - Ideal.log (∑ j : Fin 3, Ideal.exp (Cert.Spec.logits a b R j - Cert.Spec.max₃ (Cert.Spec.logits a b R))) := rfl

set_option maxHeartbeats 1000000 in
/-- What point `t` writes back is block `t` of the biased log-softmax of the arrays as the region finds them. -/
theorem flushed3_eq (V : (c : Dev nD) → (b : Ref sig .tc) → Buf (Elt Ideal) ((c : Thread nD τ).loc b)) (c : Dev nD) (t : Fin cfg3.N) :
    (dat3 (F := Ideal) V c).flushed 2 t
      = ((cfg3.win 2).blk t).view.read (Elt Ideal) (Cert.Spec.biasLogSoftmax (V c main_v59) (V c main_v60)) := by
  show (cfg3.win 2).cut (grid3.coords t) ((dat3 V c).after 2 t) = _
  rw [after3_2]
  unfold out3_2
  rw [View.canon_unit_zero off3_zero]
  simp only [View.ld_unit_zero (S := S2000x3) off3_zero, View.ld_unit_zero (S := S1x3) off3_zero]
  obtain ⟨e0, e1, e2, e3, e4, e5⟩ := idx_facts3 t
  have hN : cfg3.N = 50 := N_3
  have htlt : t.val < 50 := by have := t.isLt; omega
  funext j
  obtain ⟨p, q, rfl⟩ : ∃ (p : Fin 2000) (q : Fin 3), j = ix2 p q := ⟨j 0, j 1, eq_ix2 j⟩
  refine (pay3_apply (iblk3 V c 0 t) (iblk3 V c 1 t) p q).trans ?_
  -- entry (p, q) of block t is entry (2000·t + p, q) of the array
  have hR : t.val * 2000 + p.val < 100000 := by have := p.isLt; omega
  have hemb : ((cfg3.win 2).blk t).view.emb (ix2 p q) = ix2 (⟨t.val * 2000 + p.val, hR⟩ : Fin 100000) q := by
    funext a; apply Fin.ext
    match a with
    | ⟨0, _⟩ => show win3_2.index t (0 : Fin 2) * 2000 + 1 * p.val = t.val * 2000 + p.val; omega
    | ⟨1, _⟩ => show win3_2.index t (1 : Fin 2) * 3 + 1 * q.val = q.val; omega
  -- the block's row p, biased, is the array's row 2000·t + p, biased
  have hrow := row_logits (V c main_v59) (V c main_v60) (iblk3 V c 0 t) (iblk3 V c 1 t) (⟨t.val * 2000 + p.val, hR⟩ : Fin 100000) p
    (fun j => by
      show V c main_v59 (((cfg3.win 0).blk t).view.emb (ix2 p j)) = _
      refine congrArg (V c main_v59) (funext fun a => Fin.ext ?_)
      match a with
      | ⟨0, _⟩ => show win3_0.index t (0 : Fin 2) * 2000 + 1 * p.val = t.val * 2000 + p.val; omega
      | ⟨1, _⟩ => show win3_0.index t (1 : Fin 2) * 3 + 1 * j.val = j.val; omega)
    (fun j => by
      show V c main_v60 (((cfg3.win 1).blk t).view.emb (ix2 0 j)) = _
      refine congrArg (V c main_v60) (funext fun a => Fin.ext ?_)
      match a with
      | ⟨0, _⟩ => show win3_1.index t (0 : Fin 2) * 1 + 1 * 0 = 0; omega
      | ⟨1, _⟩ => show win3_1.index t (1 : Fin 2) * 3 + 1 * j.val = j.val; omega)
  refine Eq.trans ?_ (congrArg (Cert.Spec.biasLogSoftmax (V c main_v59) (V c main_v60)) hemb.symm)
  refine Eq.trans ?_ (biasLogSoftmax_apply (V c main_v59) (V c main_v60) _ q).symm
  exact congrArg (fun l : Fin 3 → EReal => (l q - Cert.Spec.max₃ l) - Ideal.log (∑ j : Fin 3, Ideal.exp (l j - Cert.Spec.max₃ l))) hrow

/-- An index of the result array is in point `t`'s block iff each coordinate is in the block's range on its axis. -/
theorem mem_blk3 (t : Fin cfg3.N) (i : S100000x3.Idx) :
    i ∈ ((cfg3.win 2).blk t).view.set ↔ ∀ a : Fin 2, win3_2.index t a * S2000x3.size a ≤ (i a).val ∧ (i a).val < win3_2.index t a * S2000x3.size a + S2000x3.size a := by
  show i ∈ ((View.whole main_v61).slice (win3_2.rect t)).set ↔ _
  rw [View.set_slice_whole, Rect.mem_set_unit]
  exact Iff.rfl

/-- Row `r` is in the block of point `r / 2000`: the fifty blocks tile the array. -/
theorem cover3 (i : S100000x3.Idx) :
    ∃ t : Fin cfg3.N, (cfg3.win 2).flush t = true ∧ i ∈ ((cfg3.win 2).blk t).view.set := by
  have hi0 : (i 0).val < 100000 := (i 0).isLt
  have hi1 : (i 1).val < 3 := (i 1).isLt
  have hN : cfg3.N = 50 := N_3
  have ht : (i 0).val / 2000 < cfg3.N := by rw [hN]; omega
  refine ⟨⟨(i 0).val / 2000, ht⟩, flush3_2 _, ?_⟩
  rw [mem_blk3]
  obtain ⟨-, -, -, -, e4, e5⟩ := idx_facts3 ⟨(i 0).val / 2000, ht⟩
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, ht⟩ (1 : Fin 2) * 3 ≤ (i 1).val ∧ (i 1).val < win3_2.index ⟨(i 0).val / 2000, ht⟩ (1 : Fin 2) * 3 + 3
    rw [e5]; omega

/-- The region's result array, after its fifty write-backs, is the stage applied to the arrays it was entered with. -/
theorem region3 (V : (c : Dev nD) → (b : Ref sig .tc) → Buf (Elt Ideal) ((c : Thread nD τ).loc b)) (c : Dev nD) :
    (dat3 (F := Ideal) V c).arrAt 2 cfg3.N = Cert.Spec.biasLogSoftmax (V c main_v59) (V c main_v60) :=
  (dat3 (F := Ideal) V c).arrAt_eq_of_cover 2 _ (fun t _ => flushed3_eq V c t) cover3

end Cert.KernelIdeal.Regions

end
-- ==== Proof.RefStages.lean ====
/-
  The reference's four dense stages are the functions of Proof/Spec.lean. Read at an index on the extended reals:
  its `dot_general`s are the row-by-column sums; its bias (a vector laid along every row through a one-row matrix) added
  and the maximum with a zero splat is the biased positive part, the kernel's bias being the same vector cast to a
  one-row matrix; its log-softmax — the row maximum as a host reduce from −∞, then the maximum of −∞ and that, laid back
  along the row through a one-column matrix; the sum of the exponentials as a host sum from zero; the logarithm — is
  the biased log-softmax: max (−∞) M = M since the fold from −∞ is at least −∞, and 0 + s = s.
-/
import proofs.«121444_j25907242729542_1_alg».proof.Proof.RefRead
import proofs.«121444_j25907242729542_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Stages

open Cert.ReferenceIdeal Cert.ReferenceIdeal.Gen Cert.ReferenceIdeal.ReadP
open Idealize.ShloMosaic Idealize.ShloMosaic.TcCoe Idealize.ShloMosaic.ValueIdx Idealize.SL.Sem

/-- The first `dot_general` is the first projection. -/
theorem v7_eq (x : (⟨S100000x500, .f32⟩ : BufTy).Contents (Elt Ideal)) (w : (⟨S500x16, .f32⟩ : BufTy).Contents (Elt Ideal)) :
    val_main_v7 (F := Ideal) x w = Cert.Spec.project₁ x w := by
  funext i
  rw [val_main_v7_apply]
  unfold Cert.Spec.project₁
  refine Finset.sum_congr rfl fun k _ => ?_
  have el : lidx_main_v7 i k = ix2 (i 0) k := funext fun a => Fin.ext (by match a with | ⟨0, _⟩ => rfl | ⟨1, _⟩ => rfl)
  have er : ridx_main_v7 i k = ix2 k (i 1) := funext fun a => Fin.ext (by match a with | ⟨0, _⟩ => rfl | ⟨1, _⟩ => rfl)
  exact congrArg₂ (· * ·) (congrArg x el) (congrArg w er)

/-- The bias vector as the reference lays it along the rows is the bias cast to a one-row matrix, read at its column. -/
theorem bias16_apply (x3 : (⟨S16, .f32⟩ : BufTy).Contents (Elt Ideal)) (hc : (⟨1, ![16]⟩ : Shape).ShapeCasts ⟨2, ![1, 16]⟩) (i : S100000x16.Idx) :
    val_main_v45 (F := Ideal) x3 i = shapeCast ⟨2, ![1, 16]⟩ x3 hc (ix2 0 (i 1)) := by
  rw [val_main_v45_apply, val_main_v44_apply]
  exact (shapeCast_apply x3 hc (ix2 0 (i 1)) (idx_main_v44 (idx_main_v45 i)) (by
    rw [Shape.rowMajor_val_one, Shape.rowMajor_val_two]; show (i 1).val = 0 * 16 + (i 1).val; omega)).symm

/-- Bias, then the maximum with zero: the biased positive part of the first aggregation. -/
theorem v47_eq (x0 : (⟨S100000x500, .f32⟩ : BufTy).Contents (Elt Ideal)) (x1 : (⟨S2x3200000, .i32⟩ : BufTy).Contents (Elt Ideal)) (x2 : (⟨S500x16, .f32⟩ : BufTy).Contents (Elt Ideal)) (x3 : (⟨S16, .f32⟩ : BufTy).Contents (Elt Ideal)) (hc : (⟨1, ![16]⟩ : Shape).ShapeCasts ⟨2, ![1, 16]⟩) :
    val_main_v47 (F := Ideal) x0 x1 x2 x3 = Cert.Spec.biasRelu (val_main_v43 (F := Ideal) x0 x1 x2) (shapeCast ⟨2, ![1, 16]⟩ x3 hc) := by
  funext i
  rw [val_main_v47_apply, val_main_v46_apply, bias16_apply x3 hc i, val_main_call1_v0_apply, val_main_call1_cst_apply]
  unfold Cert.Spec.biasRelu
  generalize val_main_v43 (F := Ideal) x0 x1 x2 i = a
  generalize shapeCast (⟨2, ![1, 16]⟩ : Shape) x3 hc (ix2 0 (i 1)) = b
  rfl

/-- The second `dot_general` is the second projection. -/
theorem v48_eq (x0 : (⟨S100000x500, .f32⟩ : BufTy).Contents (Elt Ideal)) (x1 : (⟨S2x3200000, .i32⟩ : BufTy).Contents (Elt Ideal)) (x2 : (⟨S500x16, .f32⟩ : BufTy).Contents (Elt Ideal)) (x3 : (⟨S16, .f32⟩ : BufTy).Contents (Elt Ideal)) (x4 : (⟨S16x3, .f32⟩ : BufTy).Contents (Elt Ideal)) :
    val_main_v48 (F := Ideal) x0 x1 x2 x3 x4 = Cert.Spec.project₂ (val_main_v47 (F := Ideal) x0 x1 x2 x3) x4 := by
  funext i
  rw [val_main_v48_apply]
  unfold Cert.Spec.project₂
  refine Finset.sum_congr rfl fun k _ => ?_
  have el : lidx_main_v48 i k = ix2 (i 0) k := funext fun a => Fin.ext (by match a with | ⟨0, _⟩ => rfl | ⟨1, _⟩ => rfl)
  have er : ridx_main_v48 i k = ix2 k (i 1) := funext fun a => Fin.ext (by match a with | ⟨0, _⟩ => rfl | ⟨1, _⟩ => rfl)
  exact congrArg₂ (· * ·) (congrArg (val_main_v47 (F := Ideal) x0 x1 x2 x3) el) (congrArg x4 er)

/-- Row `r`'s logits: the second aggregation plus the bias, the bias read through its cast to a one-row matrix. -/
theorem v87_apply (x0 : (⟨S100000x500, .f32⟩ : BufTy).Contents (Elt Ideal)) (x1 : (⟨S2x3200000, .i32⟩ : BufTy).Contents (Elt Ideal)) (x2 : (⟨S500x16, .f32⟩ : BufTy).Contents (Elt Ideal)) (x3 : (⟨S16, .f32⟩ : BufTy).Contents (Elt Ideal)) (x4 : (⟨S16x3, .f32⟩ : BufTy).Contents (Elt Ideal)) (x5 : (⟨S3, .f32⟩ : BufTy).Contents (Elt Ideal)) (hc : (⟨1, ![3]⟩ : Shape).ShapeCasts ⟨2, ![1, 3]⟩) (r : Fin 100000) (j : Fin 3) :
    val_main_v87 (F := Ideal) x0 x1 x2 x3 x4 x5 (ix2 r j)
      = Cert.Spec.logits (val_main_v84 (F := Ideal) x0 x1 x2 x3 x4) (shapeCast ⟨2, ![1, 3]⟩ x5 hc) r j := by
  rw [val_main_v87_apply, val_main_v86_apply, val_main_v85_apply]
  unfold Cert.Spec.logits
  rw [shapeCast_apply x5 hc (ix2 0 j) (idx_main_v85 (idx_main_v86 (ix2 r j))) (by
    rw [Shape.rowMajor_val_one, Shape.rowMajor_val_two]; show j.val = 0 * 3 + j.val; omega)]
  generalize val_main_v84 (F := Ideal) x0 x1 x2 x3 x4 (ix2 r j) = a
  rfl

/-- Row `r` with the class coordinate `k` put back is (r, k). -/
theorem lift_row (h : S100000x3.Reduces [1] S100000) (r : Fin 100000) (k : Fin 3) : h.lift (ix1 r) k = ix2 r k := by
  funext c; apply Fin.ext; fin_cases c <;> rfl

/-- The maximum of −∞ (the pattern `0xFF800000`) and anything is that thing. -/
theorem max_neginf (y : EReal) : max (Ideal.ofBits .f32 0xFF800000#32) y = y := by
  simp [Ideal.ofBits, Ideal.ieee]

/-- The row maximum as the reference takes it (a host reduce from −∞, then the maximum with −∞). -/
theorem rowMax_apply (x0 : (⟨S100000x500, .f32⟩ : BufTy).Contents (Elt Ideal)) (x1 : (⟨S2x3200000, .i32⟩ : BufTy).Contents (Elt Ideal)) (x2 : (⟨S500x16, .f32⟩ : BufTy).Contents (Elt Ideal)) (x3 : (⟨S16, .f32⟩ : BufTy).Contents (Elt Ideal)) (x4 : (⟨S16x3, .f32⟩ : BufTy).Contents (Elt Ideal)) (x5 : (⟨S3, .f32⟩ : BufTy).Contents (Elt Ideal)) (hc : (⟨1, ![3]⟩ : Shape).ShapeCasts ⟨2, ![1, 3]⟩) (r : Fin 100000) :
    val_main_call3_v2 (F := Ideal) x0 x1 x2 x3 x4 x5 (ix1 r)
      = Cert.Spec.max₃ (Cert.Spec.logits (val_main_v84 (F := Ideal) x0 x1 x2 x3 x4) (shapeCast ⟨2, ![1, 3]⟩ x5 hc) r) := by
  have hR : S100000x3.Reduces [1] S100000 := by decide
  rw [val_main_call3_v2_apply, val_main_call3_v1_apply, val_main_call3_cst_0_apply]
  unfold val_main_call3_v0
  have hfold := Host.reduce_eq_fold_single (FloatOps.maximumf (F := Ideal) (φ := .f32)) (val_main_v87 (F := Ideal) x0 x1 x2 x3 x4 x5) (val_main_call3_cst (F := Ideal)) reducesTo_S100000x3_S100000_d1 hR h_S_ (ix1 r)
  rw [hfold]
  have hf : (val_main_v87 (F := Ideal) x0 x1 x2 x3 x4 x5 ∘ hR.lift (ix1 r))
      = Cert.Spec.logits (val_main_v84 (F := Ideal) x0 x1 x2 x3 x4) (shapeCast ⟨2, ![1, 3]⟩ x5 hc) r := funext fun k => by
    rw [Function.comp_apply, lift_row hR r k]
    exact v87_apply x0 x1 x2 x3 x4 x5 hc r k
  rw [hf]
  unfold Cert.Spec.max₃
  generalize Cert.Spec.logits (val_main_v84 (F := Ideal) x0 x1 x2 x3 x4) (shapeCast (⟨2, ![1, 3]⟩ : Shape) x5 hc) r = l
  exact max_neginf _

/-- The shifted logits: a row's logit less the row's maximum. -/
theorem shift_apply (x0 : (⟨S100000x500, .f32⟩ : BufTy).Contents (Elt Ideal)) (x1 : (⟨S2x3200000, .i32⟩ : BufTy).Contents (Elt Ideal)) (x2 : (⟨S500x16, .f32⟩ : BufTy).Contents (Elt Ideal)) (x3 : (⟨S16, .f32⟩ : BufTy).Contents (Elt Ideal)) (x4 : (⟨S16x3, .f32⟩ : BufTy).Contents (Elt Ideal)) (x5 : (⟨S3, .f32⟩ : BufTy).Contents (Elt Ideal)) (hc : (⟨1, ![3]⟩ : Shape).ShapeCasts ⟨2, ![1, 3]⟩) (r : Fin 100000) (j : Fin 3) :
    val_main_call3_v5 (F := Ideal) x0 x1 x2 x3 x4 x5 (ix2 r j)
      = Cert.Spec.logits (val_main_v84 (F := Ideal) x0 x1 x2 x3 x4) (shapeCast ⟨2, ![1, 3]⟩ x5 hc) r j
        - Cert.Spec.max₃ (Cert.Spec.logits (val_main_v84 (F := Ideal) x0 x1 x2 x3 x4) (shapeCast ⟨2, ![1, 3]⟩ x5 hc) r) := by
  rw [val_main_call3_v5_apply, val_main_call3_v4_apply, val_main_call3_v3_apply]
  have hidx : idx_main_call3_v3 (idx_main_call3_v4 (ix2 r j)) = ix1 r := funext fun a => Fin.ext (by match a with | ⟨0, _⟩ => rfl)
  rw [hidx, rowMax_apply x0 x1 x2 x3 x4 x5 hc r, v87_apply x0 x1 x2 x3 x4 x5 hc r j]
  generalize Cert.Spec.logits (val_main_v84 (F := Ideal) x0 x1 x2 x3 x4) (shapeCast (⟨2, ![1, 3]⟩ : Shape) x5 hc) r = l
  rfl

/-- The row's sum of exponentials (the host's sum from zero). -/
theorem sum_apply (x0 : (⟨S100000x500, .f32⟩ : BufTy).Contents (Elt Ideal)) (x1 : (⟨S2x3200000, .i32⟩ : BufTy).Contents (Elt Ideal)) (x2 : (⟨S500x16, .f32⟩ : BufTy).Contents (Elt Ideal)) (x3 : (⟨S16, .f32⟩ : BufTy).Contents (Elt Ideal)) (x4 : (⟨S16x3, .f32⟩ : BufTy).Contents (Elt Ideal)) (x5 : (⟨S3, .f32⟩ : BufTy).Contents (Elt Ideal)) (hc : (⟨1, ![3]⟩ : Shape).ShapeCasts ⟨2, ![1, 3]⟩) (r : Fin 100000) :
    val_main_call3_v7 (F := Ideal) x0 x1 x2 x3 x4 x5 (ix1 r)
      = ∑ j : Fin 3, Ideal.exp (Cert.Spec.logits (val_main_v84 (F := Ideal) x0 x1 x2 x3 x4) (shapeCast ⟨2, ![1, 3]⟩ x5 hc) r j
        - Cert.Spec.max₃ (Cert.Spec.logits (val_main_v84 (F := Ideal) x0 x1 x2 x3 x4) (shapeCast ⟨2, ![1, 3]⟩ x5 hc) r)) := by
  rw [val_main_call3_v7_apply]
  have h0 : val_main_call3_cst_1 (F := Ideal) (Shape.Idx.first h_S_) = 0 := by
    rw [val_main_call3_cst_1_apply]; exact Ideal.ofBits_zero_f32
  rw [h0, zero_add]
  refine Finset.sum_congr rfl fun k _ => ?_
  have hidx : idx_main_call3_v7 (ix1 r) k = ix2 r k := funext fun a => Fin.ext (by match a with | ⟨0, _⟩ => rfl | ⟨1, _⟩ => rfl)
  rw [hidx, val_main_call3_v6_apply, shift_apply x0 x1 x2 x3 x4 x5 hc r k]
  generalize Cert.Spec.logits (val_main_v84 (F := Ideal) x0 x1 x2 x3 x4) (shapeCast (⟨2, ![1, 3]⟩ : Shape) x5 hc) r = l
  rfl

/-- The reference's log-softmax of the biased second aggregation is the biased log-softmax. -/
theorem v88_eq (x0 : (⟨S100000x500, .f32⟩ : BufTy).Contents (Elt Ideal)) (x1 : (⟨S2x3200000, .i32⟩ : BufTy).Contents (Elt Ideal)) (x2 : (⟨S500x16, .f32⟩ : BufTy).Contents (Elt Ideal)) (x3 : (⟨S16, .f32⟩ : BufTy).Contents (Elt Ideal)) (x4 : (⟨S16x3, .f32⟩ : BufTy).Contents (Elt Ideal)) (x5 : (⟨S3, .f32⟩ : BufTy).Contents (Elt Ideal)) (hc : (⟨1, ![3]⟩ : Shape).ShapeCasts ⟨2, ![1, 3]⟩) :
    val_main_v88 (F := Ideal) x0 x1 x2 x3 x4 x5
      = Cert.Spec.biasLogSoftmax (val_main_v84 (F := Ideal) x0 x1 x2 x3 x4) (shapeCast ⟨2, ![1, 3]⟩ x5 hc) := by
  funext i
  obtain ⟨r, q, rfl⟩ : ∃ (r : Fin 100000) (q : Fin 3), i = ix2 r q := ⟨i 0, i 1, eq_ix2 i⟩
  rw [val_main_v88_apply, val_main_call3_v10_apply, val_main_call3_v9_apply, val_main_call3_v8_apply]
  have hidx : idx_main_call3_v8 (idx_main_call3_v10 (ix2 r q)) = ix1 r := funext fun a => Fin.ext (by match a with | ⟨0, _⟩ => rfl)
  rw [hidx, sum_apply x0 x1 x2 x3 x4 x5 hc r, shift_apply x0 x1 x2 x3 x4 x5 hc r q]
  show _ = Cert.Spec.biasLogSoftmax (val_main_v84 (F := Ideal) x0 x1 x2 x3 x4) (shapeCast (⟨2, ![1, 3]⟩ : Shape) x5 hc) (ix2 r q)
  unfold Cert.Spec.biasLogSoftmax
  generalize Cert.Spec.logits (val_main_v84 (F := Ideal) x0 x1 x2 x3 x4) (shapeCast (⟨2, ![1, 3]⟩ : Shape) x5 hc) = L
  rfl

end Cert.ReferenceIdeal.Stages

end
-- ==== Proof.KernelValue.lean ====
/-
  The idealized kernel's result, followed from the launch to the return. The buffer contents at the boundaries of
  @main's segments are `Gen.W0 … Gen.W9`: a stretch of host operations applied (`W3`, `W5`, `W8`), or a region's result
  array replaced by what its write-backs leave (`W4`, `W6`, `W7`, `W9`). At each boundary the buffers a later segment
  reads are named by the reference's own stage functions (Proof/RefRead.lean's `val_main_vN`) of the argument arrays:

    W3   the edge list with self-loops (source, destination) and the edge weights
    W4   + the first projection                  (region 0: the product, block by block)
    W5   the first aggregation; the bias as a one-row matrix
    W6   + its biased positive part              (region 1)
    W7   + the second projection                 (region 2)
    W8   the second aggregation; the bias as a one-row matrix
    W9   + its biased log-softmax: the result    (region 3)

  The host stretches are the reference's own operations on the same operands — the gathers, products and scatter-adds
  are never opened —, so each host fact is the stretch's operations applied to the previous boundary's facts; a region's
  fact is its array lemma (Proof/Region0 … Region3) and the stage's reading (Proof/RefStages). The edge weights, which
  the reference computes once per layer and the kernel once, are one term.
-/
import proofs.«121444_j25907242729542_1_alg».proof.Proof.KernelRun
import proofs.«121444_j25907242729542_1_alg».proof.Proof.Region0
import proofs.«121444_j25907242729542_1_alg».proof.Proof.Region1
import proofs.«121444_j25907242729542_1_alg».proof.Proof.Region2
import proofs.«121444_j25907242729542_1_alg».proof.Proof.Region3
import proofs.«121444_j25907242729542_1_alg».proof.Proof.RefRead
import proofs.«121444_j25907242729542_1_alg».proof.Proof.RefStages

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo

/-! ## The host stretches, from any contents `K` -/

section Stretches

variable {F : FTy → Type} [FloatOps F] (K : Valuation τ sig (Elt F))

/-- The three stretches before region 0, one after the other. -/
abbrev pre0 : Valuation τ sig (Elt F) := after hostOps0_2 (after hostOps0_1 (after hostOps0 K))

set_option maxHeartbeats 4000000 in
theorem pre0_v3 : pre0 K (Proc.devRef .tc main_v3) = Cert.ReferenceIdeal.ReadP.val_main_v3 (F := F) (K (Proc.devRef .tc main_arg1)) := by
  show after hostOps0_2 (after hostOps0_1 (after hostOps0 K)) (Proc.devRef .tc main_v3) = _
  after_results_simp
  try simp only [cast_eq]
  all_goals rfl

set_option maxHeartbeats 4000000 in
theorem pre0_v6 : pre0 K (Proc.devRef .tc main_v6) = Cert.ReferenceIdeal.ReadP.val_main_v6 (F := F) (K (Proc.devRef .tc main_arg1)) := by
  show after hostOps0_2 (after hostOps0_1 (after hostOps0 K)) (Proc.devRef .tc main_v6) = _
  after_results_simp
  try simp only [cast_eq]
  all_goals rfl

set_option maxHeartbeats 8000000 in
theorem pre0_v29 : pre0 K (Proc.devRef .tc main_v29) = Cert.ReferenceIdeal.ReadP.val_main_v30 (F := F) (K (Proc.devRef .tc main_arg1)) := by
  show after hostOps0_2 (after hostOps0_1 (after hostOps0 K)) (Proc.devRef .tc main_v29) = _
  after_results_simp
  try simp only [cast_eq]
  all_goals rfl

theorem pre0_arg0 : pre0 K (Proc.devRef .tc main_arg0) = K (Proc.devRef .tc main_arg0) := by
  show after hostOps0_2 (after hostOps0_1 (after hostOps0 K)) (Proc.devRef .tc main_arg0) = _
  after_results_simp

theorem pre0_arg2 : pre0 K (Proc.devRef .tc main_arg2) = K (Proc.devRef .tc main_arg2) := by
  show after hostOps0_2 (after hostOps0_1 (after hostOps0 K)) (Proc.devRef .tc main_arg2) = _
  after_results_simp

theorem pre0_arg3 : pre0 K (Proc.devRef .tc main_arg3) = K (Proc.devRef .tc main_arg3) := by
  show after hostOps0_2 (after hostOps0_1 (after hostOps0 K)) (Proc.devRef .tc main_arg3) = _
  after_results_simp

theorem pre0_arg4 : pre0 K (Proc.devRef .tc main_arg4) = K (Proc.devRef .tc main_arg4) := by
  show after hostOps0_2 (after hostOps0_1 (after hostOps0 K)) (Proc.devRef .tc main_arg4) = _
  after_results_simp

theorem pre0_arg5 : pre0 K (Proc.devRef .tc main_arg5) = K (Proc.devRef .tc main_arg5) := by
  show after hostOps0_2 (after hostOps0_1 (after hostOps0 K)) (Proc.devRef .tc main_arg5) = _
  after_results_simp

/-- The stretch between regions 0 and 1: the first aggregation, from the projection, the edge list and the edge weights. -/
theorem mid_v43 (x0 : (⟨Cert.ReferenceIdeal.S100000x500, .f32⟩ : BufTy).Contents (Elt F)) (x1 : (⟨Cert.ReferenceIdeal.S2x3200000, .i32⟩ : BufTy).Contents (Elt F))
    (x2 : (⟨Cert.ReferenceIdeal.S500x16, .f32⟩ : BufTy).Contents (Elt F))
    (h30 : K (Proc.devRef .tc main_v30) = Cert.ReferenceIdeal.ReadP.val_main_v7 (F := F) x0 x2) (h3 : K (Proc.devRef .tc main_v3) = Cert.ReferenceIdeal.ReadP.val_main_v3 (F := F) x1)
    (h6 : K (Proc.devRef .tc main_v6) = Cert.ReferenceIdeal.ReadP.val_main_v6 (F := F) x1) (h29 : K (Proc.devRef .tc main_v29) = Cert.ReferenceIdeal.ReadP.val_main_v30 (F := F) x1) :
    after hostOps1 K (Proc.devRef .tc main_v43) = Cert.ReferenceIdeal.ReadP.val_main_v43 (F := F) x0 x1 x2 := by
  after_results_simp
  rw [h30, h3, h6, h29]
  try simp only [cast_eq]
  all_goals rfl

/-- … and the first bias as a one-row matrix. -/
theorem mid_v44 : after hostOps1 K (Proc.devRef .tc main_v44) = shapeCast S1x16 (K (Proc.devRef .tc main_arg3)) shapeCasts_S16_S1x16 := by
  after_results_simp
  try simp only [cast_eq]
  all_goals rfl

theorem mid_main_v3 : after hostOps1 K (Proc.devRef .tc main_v3) = K (Proc.devRef .tc main_v3) := by
  after_results_simp

theorem mid_main_v6 : after hostOps1 K (Proc.devRef .tc main_v6) = K (Proc.devRef .tc main_v6) := by
  after_results_simp

theorem mid_main_v29 : after hostOps1 K (Proc.devRef .tc main_v29) = K (Proc.devRef .tc main_v29) := by
  after_results_simp

theorem mid_main_arg4 : after hostOps1 K (Proc.devRef .tc main_arg4) = K (Proc.devRef .tc main_arg4) := by
  after_results_simp

theorem mid_main_arg5 : after hostOps1 K (Proc.devRef .tc main_arg5) = K (Proc.devRef .tc main_arg5) := by
  after_results_simp

/-- The stretch between regions 2 and 3: the second aggregation, from the projection, the edge list and the edge weights. -/
theorem last_v59 (x0 : (⟨Cert.ReferenceIdeal.S100000x500, .f32⟩ : BufTy).Contents (Elt F)) (x1 : (⟨Cert.ReferenceIdeal.S2x3200000, .i32⟩ : BufTy).Contents (Elt F))
    (x2 : (⟨Cert.ReferenceIdeal.S500x16, .f32⟩ : BufTy).Contents (Elt F)) (x3 : (⟨Cert.ReferenceIdeal.S16, .f32⟩ : BufTy).Contents (Elt F))
    (x4 : (⟨Cert.ReferenceIdeal.S16x3, .f32⟩ : BufTy).Contents (Elt F))
    (h46 : K (Proc.devRef .tc main_v46) = Cert.ReferenceIdeal.ReadP.val_main_v48 (F := F) x0 x1 x2 x3 x4) (h3 : K (Proc.devRef .tc main_v3) = Cert.ReferenceIdeal.ReadP.val_main_v3 (F := F) x1)
    (h6 : K (Proc.devRef .tc main_v6) = Cert.ReferenceIdeal.ReadP.val_main_v6 (F := F) x1) (h29 : K (Proc.devRef .tc main_v29) = Cert.ReferenceIdeal.ReadP.val_main_v30 (F := F) x1) :
    after hostOps3 K (Proc.devRef .tc main_v59) = Cert.ReferenceIdeal.ReadP.val_main_v84 (F := F) x0 x1 x2 x3 x4 := by
  after_results_simp
  rw [h46, h3, h6, h29]
  try simp only [cast_eq]
  all_goals rfl

/-- … and the second bias as a one-row matrix. -/
theorem last_v60 : after hostOps3 K (Proc.devRef .tc main_v60) = shapeCast S1x3 (K (Proc.devRef .tc main_arg5)) shapeCasts_S3_S1x3 := by
  after_results_simp
  try simp only [cast_eq]
  all_goals rfl

end Stretches

/-! ## The boundaries, from the launch to the return -/

section Chain

variable (m : (ℓ : Loc nD τ sig) → Buf (Elt Ideal) ℓ) (ρ : Dev nD → PrngReg) (c : Dev nD)

/-! ### Region 0's entry (`W3`): the edge list, the edge weights; the arguments as launched -/

theorem k3_v3 : W3 m ρ c (Proc.devRef .tc main_v3) = Cert.ReferenceIdeal.ReadP.val_main_v3 (F := Ideal) (m ((c : Thread nD τ).loc main_arg1)) := pre0_v3 (W0 m ρ c)
theorem k3_v6 : W3 m ρ c (Proc.devRef .tc main_v6) = Cert.ReferenceIdeal.ReadP.val_main_v6 (F := Ideal) (m ((c : Thread nD τ).loc main_arg1)) := pre0_v6 (W0 m ρ c)
theorem k3_v29 : W3 m ρ c (Proc.devRef .tc main_v29) = Cert.ReferenceIdeal.ReadP.val_main_v30 (F := Ideal) (m ((c : Thread nD τ).loc main_arg1)) := pre0_v29 (W0 m ρ c)
theorem k3_arg0 : W3 m ρ c (Proc.devRef .tc main_arg0) = (m ((c : Thread nD τ).loc main_arg0)) := pre0_arg0 (W0 m ρ c)
theorem k3_arg2 : W3 m ρ c (Proc.devRef .tc main_arg2) = (m ((c : Thread nD τ).loc main_arg2)) := pre0_arg2 (W0 m ρ c)
theorem k3_arg3 : W3 m ρ c (Proc.devRef .tc main_arg3) = (m ((c : Thread nD τ).loc main_arg3)) := pre0_arg3 (W0 m ρ c)
theorem k3_arg4 : W3 m ρ c (Proc.devRef .tc main_arg4) = (m ((c : Thread nD τ).loc main_arg4)) := pre0_arg4 (W0 m ρ c)
theorem k3_arg5 : W3 m ρ c (Proc.devRef .tc main_arg5) = (m ((c : Thread nD τ).loc main_arg5)) := pre0_arg5 (W0 m ρ c)

/-! ### Region 0's exit (`W4`): the first projection -/

theorem k4_v30 : W4 m ρ c (Proc.devRef .tc main_v30) = Cert.ReferenceIdeal.ReadP.val_main_v7 (F := Ideal) (m ((c : Thread nD τ).loc main_arg0)) (m ((c : Thread nD τ).loc main_arg2)) :=
  ((W4_arr m ρ c 2).trans (Cert.KernelIdeal.Regions.region0 (V3 m ρ) c)).trans
    ((congrArg₂ Cert.Spec.project₁ (k3_arg0 m ρ c) (k3_arg2 m ρ c)).trans (Cert.ReferenceIdeal.Stages.v7_eq _ _).symm)
theorem k4_v3 : W4 m ρ c (Proc.devRef .tc main_v3) = Cert.ReferenceIdeal.ReadP.val_main_v3 (F := Ideal) (m ((c : Thread nD τ).loc main_arg1)) :=
  (W4_of_ne m ρ c main_v3 (by decide)).trans (k3_v3 m ρ c)
theorem k4_v6 : W4 m ρ c (Proc.devRef .tc main_v6) = Cert.ReferenceIdeal.ReadP.val_main_v6 (F := Ideal) (m ((c : Thread nD τ).loc main_arg1)) :=
  (W4_of_ne m ρ c main_v6 (by decide)).trans (k3_v6 m ρ c)
theorem k4_v29 : W4 m ρ c (Proc.devRef .tc main_v29) = Cert.ReferenceIdeal.ReadP.val_main_v30 (F := Ideal) (m ((c : Thread nD τ).loc main_arg1)) :=
  (W4_of_ne m ρ c main_v29 (by decide)).trans (k3_v29 m ρ c)
theorem k4_arg3 : W4 m ρ c (Proc.devRef .tc main_arg3) = (m ((c : Thread nD τ).loc main_arg3)) :=
  (W4_of_ne m ρ c main_arg3 (by decide)).trans (k3_arg3 m ρ c)
theorem k4_arg4 : W4 m ρ c (Proc.devRef .tc main_arg4) = (m ((c : Thread nD τ).loc main_arg4)) :=
  (W4_of_ne m ρ c main_arg4 (by decide)).trans (k3_arg4 m ρ c)
theorem k4_arg5 : W4 m ρ c (Proc.devRef .tc main_arg5) = (m ((c : Thread nD τ).loc main_arg5)) :=
  (W4_of_ne m ρ c main_arg5 (by decide)).trans (k3_arg5 m ρ c)

/-! ### Region 1's entry (`W5`): the first aggregation, the bias as a one-row matrix -/

theorem k5_v43 : W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg2)) :=
  mid_v43 (W4 m ρ c) _ _ _ (k4_v30 m ρ c) (k4_v3 m ρ c) (k4_v6 m ρ c) (k4_v29 m ρ c)
theorem k5_v44 : W5 m ρ c (Proc.devRef .tc main_v44) = shapeCast S1x16 (m ((c : Thread nD τ).loc main_arg3)) shapeCasts_S16_S1x16 :=
  (mid_v44 (W4 m ρ c)).trans (congrArg (fun v => shapeCast S1x16 v shapeCasts_S16_S1x16) (k4_arg3 m ρ c))
theorem k5_v3 : W5 m ρ c (Proc.devRef .tc main_v3) = Cert.ReferenceIdeal.ReadP.val_main_v3 (F := Ideal) (m ((c : Thread nD τ).loc main_arg1)) :=
  (mid_main_v3 (W4 m ρ c)).trans (k4_v3 m ρ c)
theorem k5_v6 : W5 m ρ c (Proc.devRef .tc main_v6) = Cert.ReferenceIdeal.ReadP.val_main_v6 (F := Ideal) (m ((c : Thread nD τ).loc main_arg1)) :=
  (mid_main_v6 (W4 m ρ c)).trans (k4_v6 m ρ c)
theorem k5_v29 : W5 m ρ c (Proc.devRef .tc main_v29) = Cert.ReferenceIdeal.ReadP.val_main_v30 (F := Ideal) (m ((c : Thread nD τ).loc main_arg1)) :=
  (mid_main_v29 (W4 m ρ c)).trans (k4_v29 m ρ c)
theorem k5_arg4 : W5 m ρ c (Proc.devRef .tc main_arg4) = (m ((c : Thread nD τ).loc main_arg4)) :=
  (mid_main_arg4 (W4 m ρ c)).trans (k4_arg4 m ρ c)
theorem k5_arg5 : W5 m ρ c (Proc.devRef .tc main_arg5) = (m ((c : Thread nD τ).loc main_arg5)) :=
  (mid_main_arg5 (W4 m ρ c)).trans (k4_arg5 m ρ c)

/-! ### Region 1's exit (`W6`): the biased positive part -/

theorem k6_v45 : W6 m ρ c (Proc.devRef .tc main_v45) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) :=
  ((W6_arr m ρ c 2).trans (Cert.KernelIdeal.Regions.region1 (V5 m ρ) c)).trans
    ((congrArg₂ Cert.Spec.biasRelu (k5_v43 m ρ c) (k5_v44 m ρ c)).trans (Cert.ReferenceIdeal.Stages.v47_eq _ _ _ _ shapeCasts_S16_S1x16).symm)
theorem k6_v3 : W6 m ρ c (Proc.devRef .tc main_v3) = Cert.ReferenceIdeal.ReadP.val_main_v3 (F := Ideal) (m ((c : Thread nD τ).loc main_arg1)) :=
  (W6_of_ne m ρ c main_v3 (by decide)).trans (k5_v3 m ρ c)
theorem k6_v6 : W6 m ρ c (Proc.devRef .tc main_v6) = Cert.ReferenceIdeal.ReadP.val_main_v6 (F := Ideal) (m ((c : Thread nD τ).loc main_arg1)) :=
  (W6_of_ne m ρ c main_v6 (by decide)).trans (k5_v6 m ρ c)
theorem k6_v29 : W6 m ρ c (Proc.devRef .tc main_v29) = Cert.ReferenceIdeal.ReadP.val_main_v30 (F := Ideal) (m ((c : Thread nD τ).loc main_arg1)) :=
  (W6_of_ne m ρ c main_v29 (by decide)).trans (k5_v29 m ρ c)
theorem k6_arg4 : W6 m ρ c (Proc.devRef .tc main_arg4) = (m ((c : Thread nD τ).loc main_arg4)) :=
  (W6_of_ne m ρ c main_arg4 (by decide)).trans (k5_arg4 m ρ c)
theorem k6_arg5 : W6 m ρ c (Proc.devRef .tc main_arg5) = (m ((c : Thread nD τ).loc main_arg5)) :=
  (W6_of_ne m ρ c main_arg5 (by decide)).trans (k5_arg5 m ρ c)

/-! ### Region 2's exit (`W7`): the second projection -/

theorem k7_v46 : W7 m ρ c (Proc.devRef .tc main_v46) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  ((W7_arr m ρ c 2).trans (Cert.KernelIdeal.Regions.region2 (V6 m ρ) c)).trans
    ((congrArg₂ Cert.Spec.project₂ (k6_v45 m ρ c) (k6_arg4 m ρ c)).trans (Cert.ReferenceIdeal.Stages.v48_eq _ _ _ _ _).symm)
theorem k7_v3 : W7 m ρ c (Proc.devRef .tc main_v3) = Cert.ReferenceIdeal.ReadP.val_main_v3 (F := Ideal) (m ((c : Thread nD τ).loc main_arg1)) :=
  (W7_of_ne m ρ c main_v3 (by decide)).trans (k6_v3 m ρ c)
theorem k7_v6 : W7 m ρ c (Proc.devRef .tc main_v6) = Cert.ReferenceIdeal.ReadP.val_main_v6 (F := Ideal) (m ((c : Thread nD τ).loc main_arg1)) :=
  (W7_of_ne m ρ c main_v6 (by decide)).trans (k6_v6 m ρ c)
theorem k7_v29 : W7 m ρ c (Proc.devRef .tc main_v29) = Cert.ReferenceIdeal.ReadP.val_main_v30 (F := Ideal) (m ((c : Thread nD τ).loc main_arg1)) :=
  (W7_of_ne m ρ c main_v29 (by decide)).trans (k6_v29 m ρ c)
theorem k7_arg5 : W7 m ρ c (Proc.devRef .tc main_arg5) = (m ((c : Thread nD τ).loc main_arg5)) :=
  (W7_of_ne m ρ c main_arg5 (by decide)).trans (k6_arg5 m ρ c)

/-! ### Region 3's entry (`W8`): the second aggregation, the bias as a one-row matrix -/

theorem k8_v59 : W8 m ρ c (Proc.devRef .tc main_v59) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  last_v59 (W7 m ρ c) _ _ _ _ _ (k7_v46 m ρ c) (k7_v3 m ρ c) (k7_v6 m ρ c) (k7_v29 m ρ c)
theorem k8_v60 : W8 m ρ c (Proc.devRef .tc main_v60) = shapeCast S1x3 (m ((c : Thread nD τ).loc main_arg5)) shapeCasts_S3_S1x3 :=
  (last_v60 (W7 m ρ c)).trans (congrArg (fun v => shapeCast S1x3 v shapeCasts_S3_S1x3) (k7_arg5 m ρ c))

/-! ### Region 3's exit (`W9`): the result -/

/-- The result buffer at the return is the reference's last stage of the argument arrays. -/
theorem result_eq : W9 m ρ c (Proc.devRef .tc main_v61) = Cert.ReferenceIdeal.ReadP.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((W9_arr m ρ c 2).trans (Cert.KernelIdeal.Regions.region3 (V8 m ρ) c)).trans
    ((congrArg₂ Cert.Spec.biasLogSoftmax (k8_v59 m ρ c) (k8_v60 m ρ c)).trans (Cert.ReferenceIdeal.Stages.v88_eq _ _ _ _ _ _ shapeCasts_S3_S1x3).symm)

end Chain

/-- Every weakly fair execution of the idealized kernel's @main terminates, nothing faulting, with the result buffer
    at the reference's last stage of the argument arrays and the argument arrays as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v61) = Cert.ReferenceIdeal.ReadP.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.RunValue.run_result m ρ)

end Cert.KernelIdeal.KernelValue

end
-- ==== Proof.RefValue.lean ====
/-
  The reference's run, read stage by stage. Its @main is 131 host operations in a line (`ValueP.ops`); the buffer
  contents after them are the fold `StableHlo.after ops V` of the operations' results from the launch contents `V`.
  The line is cut where the computation has its joints —
    the edge list with self-loops and the first projection · the edge weights · the first aggregation ·
    bias and positive part · the second projection · the edge weights again · the second aggregation ·
    the second bias, and the log-softmax cut at each of its reductions —
  and after each piece the buffers a later piece reads are named by the stage functions of Proof/RefRead.lean
  (`val_main_vN` of the launch contents of the arguments), or are the launch contents themselves for an argument no
  operation writes. Each fact is the piece's operations applied to the previous piece's facts; no term is ever
  expanded through more than one piece. The last fact is the result; `run` puts it under the program's executions.
-/
import proofs.«121444_j25907242729542_1_alg».proof.Proof.RefRun
import proofs.«121444_j25907242729542_1_alg».proof.Proof.RefRead

set_option maxRecDepth 16384

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Two lines of operations one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Piece 1 (operations 1 … 8): the edge list with self-loops, and the first projection. -/
abbrev piece1 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_arg0 main_arg2 main_v7 ((fun l r => Host.dotGeneral dot_S100000x500_S500x16_S100000x16_1_0_0_1_n_n none l r) : (⟨S100000x500, .f32⟩ : BufTy).Contents (Elt F) → (⟨S500x16, .f32⟩ : BufTy).Contents (Elt F) → (⟨S100000x16, .f32⟩ : BufTy).Contents (Elt F)) ]

/-- Piece 2 (operations 9 … 41): the edge weights. -/
abbrev piece2 : List (HloOp τ sig (Elt F)) :=
  [ nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- Piece 3 (operations 42 … 57): the first aggregation. -/
abbrev piece3 : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v7 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- Piece 4 (operations 58 … 63): bias and positive part. -/
abbrev piece4 : List (HloOp τ sig (Elt F)) :=
  [ unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

/-- Piece 5 (operations 64 … 64): the second projection. -/
abbrev piece5 : List (HloOp τ sig (Elt F)) :=
  [ binary main_v47 main_arg4 main_v48 ((fun l r => Host.dotGeneral dot_S100000x16_S16x3_S100000x3_1_0_0_1_n_n none l r) : (⟨S100000x16, .f32⟩ : BufTy).Contents (Elt F) → (⟨S16x3, .f32⟩ : BufTy).Contents (Elt F) → (⟨S100000x3, .f32⟩ : BufTy).Contents (Elt F)) ]

/-- Piece 6 (operations 65 … 97): the edge weights, computed again. -/
abbrev piece6 : List (HloOp τ sig (Elt F)) :=
  [ nullary main_cst_9 (constant S_ .f32 0x3F800000#32),
    unary main_cst_9 main_v49 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S3300000x1 ![0] bcast_S3300000_S3300000x1_0 : (⟨S3300000, .i32⟩ : BufTy).Contents (Elt F) → (⟨S3300000x1, .i32⟩ : BufTy).Contents (Elt F)),
    ternary main_v50 main_v51 main_v49 main_v52 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select,
    nullary main_c_13 (constantI S_ 32 0#32),
    unary main_c_13 main_v57 (broadcastInDim S3300000 ![] bcast_S_S3300000 : (⟨S_, .i32⟩ : BufTy).Contents (Elt F) → (⟨S3300000, .i32⟩ : BufTy).Contents (Elt F)),
    binary main_v3 main_v57 main_v58 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v59 (broadcastInDim S3300000 ![] bcast_S_S3300000 : (⟨S_, .i32⟩ : BufTy).Contents (Elt F) → (⟨S3300000, .i32⟩ : BufTy).Contents (Elt F)),
    binary main_v3 main_v59 main_v60 (addi : (⟨S3300000, .i32⟩ : BufTy).Contents (Elt F) → (⟨S3300000, .i32⟩ : BufTy).Contents (Elt F) → (⟨S3300000, .i32⟩ : BufTy).Contents (Elt F)),
    ternary main_v58 main_v60 main_v3 main_v61 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v61 main_v62 (broadcastInDim S3300000x1 ![0] bcast_S3300000_S3300000x1_0 : (⟨S3300000, .i32⟩ : BufTy).Contents (Elt F) → (⟨S3300000x1, .i32⟩ : BufTy).Contents (Elt F)),
    binary main_v56 main_v62 main_v63 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v64 (broadcastInDim S3300000 ![] bcast_S_S3300000 : (⟨S_, .i32⟩ : BufTy).Contents (Elt F) → (⟨S3300000, .i32⟩ : BufTy).Contents (Elt F)),
    binary main_v6 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v66 (broadcastInDim S3300000 ![] bcast_S_S3300000 : (⟨S_, .i32⟩ : BufTy).Contents (Elt F) → (⟨S3300000, .i32⟩ : BufTy).Contents (Elt F)),
    binary main_v6 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v6 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v56 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v63 main_v70 main_v71 (mulf : (⟨S3300000, .f32⟩ : BufTy).Contents (Elt F) → (⟨S3300000, .f32⟩ : BufTy).Contents (Elt F) → (⟨S3300000, .f32⟩ : BufTy).Contents (Elt F)) ]

/-- Piece 7 (operations 98 … 113): the second aggregation. -/
abbrev piece7 : List (HloOp τ sig (Elt F)) :=
  [ nullary main_c_17 (constantI S_ 32 0#32),
    unary main_c_17 main_v72 (broadcastInDim S3300000 ![] bcast_S_S3300000 : (⟨S_, .i32⟩ : BufTy).Contents (Elt F) → (⟨S3300000, .i32⟩ : BufTy).Contents (Elt F)),
    binary main_v3 main_v72 main_v73 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v74 (broadcastInDim S3300000 ![] bcast_S_S3300000 : (⟨S_, .i32⟩ : BufTy).Contents (Elt F) → (⟨S3300000, .i32⟩ : BufTy).Contents (Elt F)),
    binary main_v3 main_v74 main_v75 (addi : (⟨S3300000, .i32⟩ : BufTy).Contents (Elt F) → (⟨S3300000, .i32⟩ : BufTy).Contents (Elt F) → (⟨S3300000, .i32⟩ : BufTy).Contents (Elt F)),
    ternary main_v73 main_v75 main_v3 main_v76 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v76 main_v77 (broadcastInDim S3300000x1 ![0] bcast_S3300000_S3300000x1_0 : (⟨S3300000, .i32⟩ : BufTy).Contents (Elt F) → (⟨S3300000x1, .i32⟩ : BufTy).Contents (Elt F)),
    binary main_v48 main_v77 main_v78 ((fun x i => Host.gather gather_S100000x3_S3300000x1_S3300000x3_1_0_n_n_0_1_13 x i) : (⟨S100000x3, .f32⟩ : BufTy).Contents (Elt F) → (⟨S3300000x1, .i32⟩ : BufTy).Contents (Elt F) → (⟨S3300000x3, .f32⟩ : BufTy).Contents (Elt F)),
    unary main_v71 main_v79 (broadcastInDim S3300000x1 ![0] bcast_S3300000_S3300000x1_0 : (⟨S3300000, .f32⟩ : BufTy).Contents (Elt F) → (⟨S3300000x1, .f32⟩ : BufTy).Contents (Elt F)),
    unary main_v79 main_v80 (broadcastInDim S3300000x3 ![0, 1] bcast_S3300000x1_S3300000x3_0_1 : (⟨S3300000x1, .f32⟩ : BufTy).Contents (Elt F) → (⟨S3300000x3, .f32⟩ : BufTy).Contents (Elt F)),
    binary main_v78 main_v80 main_v81 (mulf : (⟨S3300000x3, .f32⟩ : BufTy).Contents (Elt F) → (⟨S3300000x3, .f32⟩ : BufTy).Contents (Elt F) → (⟨S3300000x3, .f32⟩ : BufTy).Contents (Elt F)),
    nullary main_cst_19 (constant S_ .f32 0x00000000#32),
    unary main_cst_19 main_v82 (broadcastInDim S100000x3 ![] bcast_S_S100000x3 : (⟨S_, .f32⟩ : BufTy).Contents (Elt F) → (⟨S100000x3, .f32⟩ : BufTy).Contents (Elt F)),
    unary main_v6 main_v83 (broadcastInDim S3300000x1 ![0] bcast_S3300000_S3300000x1_0 : (⟨S3300000, .i32⟩ : BufTy).Contents (Elt F) → (⟨S3300000x1, .i32⟩ : BufTy).Contents (Elt F)),
    ternary main_v82 main_v83 main_v81 main_v84 ((fun x i u => Host.scatterAdd scatter_S100000x3_S3300000x1_S3300000x3_1_0_0_1 x i u) : (⟨S100000x3, .f32⟩ : BufTy).Contents (Elt F) → (⟨S3300000x1, .i32⟩ : BufTy).Contents (Elt F) → (⟨S3300000x3, .f32⟩ : BufTy).Contents (Elt F) → (⟨S100000x3, .f32⟩ : BufTy).Contents (Elt F)) ]

/-- Piece 8 (operations 114 … 116): the second bias. -/
abbrev piece8 : List (HloOp τ sig (Elt F)) :=
  [ unary main_arg5 main_v85 (broadcastInDim S1x3 ![1] bcast_S3_S1x3_1 : (⟨S3, .f32⟩ : BufTy).Contents (Elt F) → (⟨S1x3, .f32⟩ : BufTy).Contents (Elt F)),
    unary main_v85 main_v86 (broadcastInDim S100000x3 ![0, 1] bcast_S1x3_S100000x3_0_1 : (⟨S1x3, .f32⟩ : BufTy).Contents (Elt F) → (⟨S100000x3, .f32⟩ : BufTy).Contents (Elt F)),
    binary main_v84 main_v86 main_v87 (addf : (⟨S100000x3, .f32⟩ : BufTy).Contents (Elt F) → (⟨S100000x3, .f32⟩ : BufTy).Contents (Elt F) → (⟨S100000x3, .f32⟩ : BufTy).Contents (Elt F)) ]

/-- Piece 9 (operations 117 … 118): the rows' maxima. -/
abbrev piece9 : List (HloOp τ sig (Elt F)) :=
  [ TRef.nullary (TRef.of (T := ⟨S_, .f32⟩) main_call3_cst) (constant S_ .f32 0xFF800000#32),
    TRef.binary (TRef.of (T := ⟨S100000x3, .f32⟩) main_v87) (TRef.of (T := ⟨S_, .f32⟩) main_call3_cst) (TRef.of (T := ⟨S100000, .f32⟩) main_call3_v0) (fun x v => Host.reduce FloatOps.maximumf x v reducesTo_S100000x3_S100000_d1 h_S_) ]

/-- Piece 10 (operations 119 … 121): the maxima against −∞. -/
abbrev piece10 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- Piece 11 (operations 122 … 124): the shifted logits. -/
abbrev piece11 : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x3, .f32⟩) main_call3_v4) (broadcastInDim S100000x3 ![0, 1] bcast_S100000x1_S100000x3_0_1),
    TRef.binary (TRef.of (T := ⟨S100000x3, .f32⟩) main_v87) (TRef.of (T := ⟨S100000x3, .f32⟩) main_call3_v4) (TRef.of (T := ⟨S100000x3, .f32⟩) main_call3_v5) subf ]

/-- Piece 12 (operations 125 … 125): their exponentials. -/
abbrev piece12 : List (HloOp τ sig (Elt F)) :=
  [ TRef.unary (TRef.of (T := ⟨S100000x3, .f32⟩) main_call3_v5) (TRef.of (T := ⟨S100000x3, .f32⟩) main_call3_v6) Host.exp ]

/-- Piece 13 (operations 126 … 127): the rows' sums. -/
abbrev piece13 : List (HloOp τ sig (Elt F)) :=
  [ TRef.nullary (TRef.of (T := ⟨S_, .f32⟩) main_call3_cst_1) (constant S_ .f32 0x00000000#32),
    TRef.binary (TRef.of (T := ⟨S100000x3, .f32⟩) main_call3_v6) (TRef.of (T := ⟨S_, .f32⟩) main_call3_cst_1) (TRef.of (T := ⟨S100000, .f32⟩) main_call3_v7) (fun x v => Host.reduceAdd x v reducesTo_S100000x3_S100000_d1 h_S_) ]

/-- Piece 14 (operations 128 … 131): the logarithms, and the result. -/
abbrev piece14 : List (HloOp τ sig (Elt F)) :=
  [ TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x3, .f32⟩) main_call3_v10) (broadcastInDim S100000x3 ![0, 1] bcast_S100000x1_S100000x3_0_1),
    TRef.binary (TRef.of (T := ⟨S100000x3, .f32⟩) main_call3_v5) (TRef.of (T := ⟨S100000x3, .f32⟩) main_call3_v10) (TRef.of (T := ⟨S100000x3, .f32⟩) main_v88) subf ]

/-- The line is its pieces. -/
theorem ops_eq_pieces : (ops : List (HloOp τ sig (Elt F))) = piece1 ++ (piece2 ++ (piece3 ++ (piece4 ++ (piece5 ++ (piece6 ++ (piece7 ++ (piece8 ++ (piece9 ++ (piece10 ++ (piece11 ++ (piece12 ++ (piece13 ++ (piece14))))))))))))) := rfl

section Contents

variable (V : Valuation τ sig (Elt F))

/-- The buffer contents after pieces 1 … k, from the launch contents `V`. -/
def at1 : Valuation τ sig (Elt F) := after piece1 V
def at2 : Valuation τ sig (Elt F) := after piece2 (at1 V)
def at3 : Valuation τ sig (Elt F) := after piece3 (at2 V)
def at4 : Valuation τ sig (Elt F) := after piece4 (at3 V)
def at5 : Valuation τ sig (Elt F) := after piece5 (at4 V)
def at6 : Valuation τ sig (Elt F) := after piece6 (at5 V)
def at7 : Valuation τ sig (Elt F) := after piece7 (at6 V)
def at8 : Valuation τ sig (Elt F) := after piece8 (at7 V)
def at9 : Valuation τ sig (Elt F) := after piece9 (at8 V)
def at10 : Valuation τ sig (Elt F) := after piece10 (at9 V)
def at11 : Valuation τ sig (Elt F) := after piece11 (at10 V)
def at12 : Valuation τ sig (Elt F) := after piece12 (at11 V)
def at13 : Valuation τ sig (Elt F) := after piece13 (at12 V)
def at14 : Valuation τ sig (Elt F) := after piece14 (at13 V)

theorem after_ops : after ops V = at14 V := by
  rw [ops_eq_pieces]
  simp only [after_append]
  rfl

/-! ### After piece 1 -/

theorem f1_arg3 : at1 V (Proc.devRef .tc main_arg3) = (V (Proc.devRef .tc main_arg3)) := by
  show after piece1 V (Proc.devRef .tc main_arg3) = _
  after_results_simp

theorem f1_arg4 : at1 V (Proc.devRef .tc main_arg4) = (V (Proc.devRef .tc main_arg4)) := by
  show after piece1 V (Proc.devRef .tc main_arg4) = _
  after_results_simp

theorem f1_arg5 : at1 V (Proc.devRef .tc main_arg5) = (V (Proc.devRef .tc main_arg5)) := by
  show after piece1 V (Proc.devRef .tc main_arg5) = _
  after_results_simp

set_option maxHeartbeats 4000000 in
theorem f1_v3 : at1 V (Proc.devRef .tc main_v3) = val_main_v3 (F := F) (V (Proc.devRef .tc main_arg1)) := by
  show after piece1 V (Proc.devRef .tc main_v3) = _
  after_results_simp
  try simp only [cast_eq]
  all_goals rfl

set_option maxHeartbeats 4000000 in
theorem f1_v6 : at1 V (Proc.devRef .tc main_v6) = val_main_v6 (F := F) (V (Proc.devRef .tc main_arg1)) := by
  show after piece1 V (Proc.devRef .tc main_v6) = _
  after_results_simp
  try simp only [cast_eq]
  all_goals rfl

set_option maxHeartbeats 4000000 in
theorem f1_v7 : at1 V (Proc.devRef .tc main_v7) = val_main_v7 (F := F) (V (Proc.devRef .tc main_arg0)) (V (Proc.devRef .tc main_arg2)) := by
  show after piece1 V (Proc.devRef .tc main_v7) = _
  after_results_simp
  try simp only [cast_eq]
  all_goals rfl

/-! ### After piece 2 -/

theorem f2_v3 : at2 V (Proc.devRef .tc main_v3) = val_main_v3 (F := F) (V (Proc.devRef .tc main_arg1)) := by
  show after piece2 (at1 V) (Proc.devRef .tc main_v3) = _
  after_results_simp
  exact f1_v3 V

theorem f2_v6 : at2 V (Proc.devRef .tc main_v6) = val_main_v6 (F := F) (V (Proc.devRef .tc main_arg1)) := by
  show after piece2 (at1 V) (Proc.devRef .tc main_v6) = _
  after_results_simp
  exact f1_v6 V

theorem f2_v7 : at2 V (Proc.devRef .tc main_v7) = val_main_v7 (F := F) (V (Proc.devRef .tc main_arg0)) (V (Proc.devRef .tc main_arg2)) := by
  show after piece2 (at1 V) (Proc.devRef .tc main_v7) = _
  after_results_simp
  exact f1_v7 V

theorem f2_arg3 : at2 V (Proc.devRef .tc main_arg3) = (V (Proc.devRef .tc main_arg3)) := by
  show after piece2 (at1 V) (Proc.devRef .tc main_arg3) = _
  after_results_simp
  exact f1_arg3 V

theorem f2_arg4 : at2 V (Proc.devRef .tc main_arg4) = (V (Proc.devRef .tc main_arg4)) := by
  show after piece2 (at1 V) (Proc.devRef .tc main_arg4) = _
  after_results_simp
  exact f1_arg4 V

theorem f2_arg5 : at2 V (Proc.devRef .tc main_arg5) = (V (Proc.devRef .tc main_arg5)) := by
  show after piece2 (at1 V) (Proc.devRef .tc main_arg5) = _
  after_results_simp
  exact f1_arg5 V

set_option maxHeartbeats 4000000 in
theorem f2_v30 : at2 V (Proc.devRef .tc main_v30) = val_main_v30 (F := F) (V (Proc.devRef .tc main_arg1)) := by
  show after piece2 (at1 V) (Proc.devRef .tc main_v30) = _
  after_results_simp
  rw [f1_v3 V, f1_v6 V]
  try simp only [cast_eq]
  all_goals rfl

/-! ### After piece 3 -/

theorem f3_v3 : at3 V (Proc.devRef .tc main_v3) = val_main_v3 (F := F) (V (Proc.devRef .tc main_arg1)) := by
  show after piece3 (at2 V) (Proc.devRef .tc main_v3) = _
  after_results_simp
  exact f2_v3 V

theorem f3_v6 : at3 V (Proc.devRef .tc main_v6) = val_main_v6 (F := F) (V (Proc.devRef .tc main_arg1)) := by
  show after piece3 (at2 V) (Proc.devRef .tc main_v6) = _
  after_results_simp
  exact f2_v6 V

theorem f3_arg3 : at3 V (Proc.devRef .tc main_arg3) = (V (Proc.devRef .tc main_arg3)) := by
  show after piece3 (at2 V) (Proc.devRef .tc main_arg3) = _
  after_results_simp
  exact f2_arg3 V

theorem f3_arg4 : at3 V (Proc.devRef .tc main_arg4) = (V (Proc.devRef .tc main_arg4)) := by
  show after piece3 (at2 V) (Proc.devRef .tc main_arg4) = _
  after_results_simp
  exact f2_arg4 V

theorem f3_arg5 : at3 V (Proc.devRef .tc main_arg5) = (V (Proc.devRef .tc main_arg5)) := by
  show after piece3 (at2 V) (Proc.devRef .tc main_arg5) = _
  after_results_simp
  exact f2_arg5 V

set_option maxHeartbeats 4000000 in
theorem f3_v43 : at3 V (Proc.devRef .tc main_v43) = val_main_v43 (F := F) (V (Proc.devRef .tc main_arg0)) (V (Proc.devRef .tc main_arg1)) (V (Proc.devRef .tc main_arg2)) := by
  show after piece3 (at2 V) (Proc.devRef .tc main_v43) = _
  after_results_simp
  rw [f2_v3 V, f2_v6 V, f2_v7 V, f2_v30 V]
  try simp only [cast_eq]
  all_goals rfl

/-! ### After piece 4 -/

theorem f4_v3 : at4 V (Proc.devRef .tc main_v3) = val_main_v3 (F := F) (V (Proc.devRef .tc main_arg1)) := by
  show after piece4 (at3 V) (Proc.devRef .tc main_v3) = _
  after_results_simp
  exact f3_v3 V

theorem f4_v6 : at4 V (Proc.devRef .tc main_v6) = val_main_v6 (F := F) (V (Proc.devRef .tc main_arg1)) := by
  show after piece4 (at3 V) (Proc.devRef .tc main_v6) = _
  after_results_simp
  exact f3_v6 V

theorem f4_arg4 : at4 V (Proc.devRef .tc main_arg4) = (V (Proc.devRef .tc main_arg4)) := by
  show after piece4 (at3 V) (Proc.devRef .tc main_arg4) = _
  after_results_simp
  exact f3_arg4 V

theorem f4_arg5 : at4 V (Proc.devRef .tc main_arg5) = (V (Proc.devRef .tc main_arg5)) := by
  show after piece4 (at3 V) (Proc.devRef .tc main_arg5) = _
  after_results_simp
  exact f3_arg5 V

set_option maxHeartbeats 4000000 in
theorem f4_v47 : at4 V (Proc.devRef .tc main_v47) = val_main_v47 (F := F) (V (Proc.devRef .tc main_arg0)) (V (Proc.devRef .tc main_arg1)) (V (Proc.devRef .tc main_arg2)) (V (Proc.devRef .tc main_arg3)) := by
  show after piece4 (at3 V) (Proc.devRef .tc main_v47) = _
  after_results_simp
  rw [f3_v43 V, f3_arg3 V]
  try simp only [cast_eq]
  all_goals rfl

/-! ### After piece 5 -/

theorem f5_v3 : at5 V (Proc.devRef .tc main_v3) = val_main_v3 (F := F) (V (Proc.devRef .tc main_arg1)) := by
  show after piece5 (at4 V) (Proc.devRef .tc main_v3) = _
  after_results_simp
  exact f4_v3 V

theorem f5_v6 : at5 V (Proc.devRef .tc main_v6) = val_main_v6 (F := F) (V (Proc.devRef .tc main_arg1)) := by
  show after piece5 (at4 V) (Proc.devRef .tc main_v6) = _
  after_results_simp
  exact f4_v6 V

theorem f5_arg5 : at5 V (Proc.devRef .tc main_arg5) = (V (Proc.devRef .tc main_arg5)) := by
  show after piece5 (at4 V) (Proc.devRef .tc main_arg5) = _
  after_results_simp
  exact f4_arg5 V

set_option maxHeartbeats 4000000 in
theorem f5_v48 : at5 V (Proc.devRef .tc main_v48) = val_main_v48 (F := F) (V (Proc.devRef .tc main_arg0)) (V (Proc.devRef .tc main_arg1)) (V (Proc.devRef .tc main_arg2)) (V (Proc.devRef .tc main_arg3)) (V (Proc.devRef .tc main_arg4)) := by
  show after piece5 (at4 V) (Proc.devRef .tc main_v48) = _
  after_results_simp
  rw [f4_v47 V, f4_arg4 V]
  try simp only [cast_eq]
  all_goals rfl

/-! ### After piece 6 -/

theorem f6_v3 : at6 V (Proc.devRef .tc main_v3) = val_main_v3 (F := F) (V (Proc.devRef .tc main_arg1)) := by
  show after piece6 (at5 V) (Proc.devRef .tc main_v3) = _
  after_results_simp
  exact f5_v3 V

theorem f6_v6 : at6 V (Proc.devRef .tc main_v6) = val_main_v6 (F := F) (V (Proc.devRef .tc main_arg1)) := by
  show after piece6 (at5 V) (Proc.devRef .tc main_v6) = _
  after_results_simp
  exact f5_v6 V

theorem f6_v48 : at6 V (Proc.devRef .tc main_v48) = val_main_v48 (F := F) (V (Proc.devRef .tc main_arg0)) (V (Proc.devRef .tc main_arg1)) (V (Proc.devRef .tc main_arg2)) (V (Proc.devRef .tc main_arg3)) (V (Proc.devRef .tc main_arg4)) := by
  show after piece6 (at5 V) (Proc.devRef .tc main_v48) = _
  after_results_simp
  exact f5_v48 V

theorem f6_arg5 : at6 V (Proc.devRef .tc main_arg5) = (V (Proc.devRef .tc main_arg5)) := by
  show after piece6 (at5 V) (Proc.devRef .tc main_arg5) = _
  after_results_simp
  exact f5_arg5 V

set_option maxHeartbeats 4000000 in
theorem f6_v71 : at6 V (Proc.devRef .tc main_v71) = val_main_v71 (F := F) (V (Proc.devRef .tc main_arg1)) := by
  show after piece6 (at5 V) (Proc.devRef .tc main_v71) = _
  after_results_simp
  rw [f5_v3 V, f5_v6 V]
  try simp only [cast_eq]
  all_goals rfl

/-! ### After piece 7 -/

theorem f7_arg5 : at7 V (Proc.devRef .tc main_arg5) = (V (Proc.devRef .tc main_arg5)) := by
  show after piece7 (at6 V) (Proc.devRef .tc main_arg5) = _
  after_results_simp
  exact f6_arg5 V

set_option maxHeartbeats 4000000 in
theorem f7_v84 : at7 V (Proc.devRef .tc main_v84) = val_main_v84 (F := F) (V (Proc.devRef .tc main_arg0)) (V (Proc.devRef .tc main_arg1)) (V (Proc.devRef .tc main_arg2)) (V (Proc.devRef .tc main_arg3)) (V (Proc.devRef .tc main_arg4)) := by
  show after piece7 (at6 V) (Proc.devRef .tc main_v84) = _
  after_results_simp
  rw [f6_v3 V, f6_v6 V, f6_v48 V, f6_v71 V]
  try simp only [cast_eq]
  all_goals rfl

/-! ### After piece 8 -/

set_option maxHeartbeats 4000000 in
theorem f8_v87 : at8 V (Proc.devRef .tc main_v87) = val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  show after piece8 (at7 V) (Proc.devRef .tc main_v87) = _
  after_results_simp
  rw [f7_v84 V, f7_arg5 V]
  try simp only [cast_eq]
  all_goals rfl

/-! ### After piece 9 -/

theorem f9_v87 : at9 V (Proc.devRef .tc main_v87) = val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  show after piece9 (at8 V) (Proc.devRef .tc main_v87) = _
  after_results_simp
  exact f8_v87 V

set_option maxHeartbeats 4000000 in
theorem f9_c3v0 : at9 V (Proc.devRef .tc main_call3_v0) = val_main_call3_v0 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  show after piece9 (at8 V) (Proc.devRef .tc main_call3_v0) = _
  after_results_simp
  rw [f8_v87 V]
  try simp only [cast_eq]
  all_goals rfl

/-! ### After piece 10 -/

theorem f10_v87 : at10 V (Proc.devRef .tc main_v87) = val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  show after piece10 (at9 V) (Proc.devRef .tc main_v87) = _
  after_results_simp
  exact f9_v87 V

set_option maxHeartbeats 4000000 in
theorem f10_c3v2 : at10 V (Proc.devRef .tc main_call3_v2) = val_main_call3_v2 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  show after piece10 (at9 V) (Proc.devRef .tc main_call3_v2) = _
  after_results_simp
  rw [f9_c3v0 V]
  try simp only [cast_eq]
  all_goals rfl

/-! ### After piece 11 -/

set_option maxHeartbeats 4000000 in
theorem f11_c3v5 : at11 V (Proc.devRef .tc main_call3_v5) = val_main_call3_v5 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  show after piece11 (at10 V) (Proc.devRef .tc main_call3_v5) = _
  after_results_simp
  rw [f10_v87 V, f10_c3v2 V]
  try simp only [cast_eq]
  all_goals rfl

/-! ### After piece 12 -/

theorem f12_c3v5 : at12 V (Proc.devRef .tc main_call3_v5) = val_main_call3_v5 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  show after piece12 (at11 V) (Proc.devRef .tc main_call3_v5) = _
  after_results_simp
  exact f11_c3v5 V

set_option maxHeartbeats 4000000 in
theorem f12_c3v6 : at12 V (Proc.devRef .tc main_call3_v6) = val_main_call3_v6 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  show after piece12 (at11 V) (Proc.devRef .tc main_call3_v6) = _
  after_results_simp
  rw [f11_c3v5 V]
  try simp only [cast_eq]
  all_goals rfl

/-! ### After piece 13 -/

theorem f13_c3v5 : at13 V (Proc.devRef .tc main_call3_v5) = val_main_call3_v5 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  show after piece13 (at12 V) (Proc.devRef .tc main_call3_v5) = _
  after_results_simp
  exact f12_c3v5 V

set_option maxHeartbeats 4000000 in
theorem f13_c3v7 : at13 V (Proc.devRef .tc main_call3_v7) = val_main_call3_v7 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  show after piece13 (at12 V) (Proc.devRef .tc main_call3_v7) = _
  after_results_simp
  rw [f12_c3v6 V]
  try simp only [cast_eq]
  all_goals rfl

/-! ### After piece 14 -/

set_option maxHeartbeats 4000000 in
theorem f14_v88 : at14 V (Proc.devRef .tc main_v88) = val_main_v88 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  show after piece14 (at13 V) (Proc.devRef .tc main_v88) = _
  after_results_simp
  rw [f13_c3v5 V, f13_c3v7 V]
  try simp only [cast_eq]
  all_goals rfl

/-- The result buffer after the whole line: the last stage of the launch contents of the arguments. -/
theorem result_eq : after ops V (Proc.devRef .tc main_v88) = val_main_v88 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops]; exact f14_v88 V

end Contents

set_option maxRecDepth 8192 in
set_option maxHeartbeats 52400000 in
/-- From any memory with zero counters every weakly fair execution of the reference's @main terminates, nothing faulting,
    with the result buffer at the last stage of the argument arrays and the argument arrays as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = val_main_v88 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v88).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefValue

end
-- ==== Proof.lean ====
/-
  A two-layer graph convolution with a log-softmax head, over 100000 nodes and 3200000 edges: the kernel against its
  reference, on the extended reals.

  Both programs build the same edge list with self-loops, the same degree-normalised edge weights (a scatter-add of
  ones, a reciprocal square root, two gathers and a product), and aggregate features along the edges by the same
  gather, product and scatter-add. They differ only in the four dense stages, which the kernel computes in fifty
  blocks of 2000 rows each and the reference on whole arrays:

    x · W₁                      a matrix product into a zero accumulator (its narrowing of the operands is the identity here)
    max (A₁ + b₁, 0)            the bias a one-row matrix laid along the rows
    a₁ · W₂                     a matrix product again
    log-softmax (A₂ + b₂)       row maximum from −∞, shift, exponentials, row sum, logarithm, shift

  Every entry of each stage depends on its own row only, so a block of the stage is the stage of the block, and the
  blocks tile the rows (Proof/Region0 … Region3 over Proof/Spec); the reference's spelling of each stage reads to the
  same function (Proof/RefStages: its extra maximum with −∞ and its sum's zero start are absorbed). Between the stages
  the two programs apply the same operations to the same operands, so the results agree stage by stage, from the
  arguments to the result (Proof/KernelValue, Proof/RefValue). No law of arithmetic beyond 0 + s = s and
  max (−∞) M = M is used, and none that needs the inputs finite.

  The frames are the generated ones (the reference's is its run with the result dropped); the idealization rewrote
  no operation, so there is nothing to preserve.
-/
import proofs.«121444_j25907242729542_1_alg».proof.Defs
import proofs.«121444_j25907242729542_1_alg».proof.Proof.Gen.Kernel
import proofs.«121444_j25907242729542_1_alg».proof.Proof.Gen.Kernel.Skeleton
import proofs.«121444_j25907242729542_1_alg».proof.Proof.Gen.Kernel.Launch
import proofs.«121444_j25907242729542_1_alg».proof.Proof.Gen.Kernel.Points
import proofs.«121444_j25907242729542_1_alg».proof.Proof.Gen.Kernel.Frame
import proofs.«121444_j25907242729542_1_alg».proof.Proof.Gen.KernelIdeal
import proofs.«121444_j25907242729542_1_alg».proof.Proof.Gen.KernelIdeal.Skeleton
import proofs.«121444_j25907242729542_1_alg».proof.Proof.Gen.KernelIdeal.Launch
import proofs.«121444_j25907242729542_1_alg».proof.Proof.Gen.KernelIdeal.Points
import proofs.«121444_j25907242729542_1_alg».proof.Proof.Gen.KernelIdeal.Frame
import proofs.«121444_j25907242729542_1_alg».proof.Proof.Gen.ReferenceIdeal
import proofs.«121444_j25907242729542_1_alg».proof.Proof.Gen.Pre_finite_inputs
import proofs.«121444_j25907242729542_1_alg».proof.Proof.KernelValue
import proofs.«121444_j25907242729542_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, nothing faulting, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- From memories agreeing on the arguments both programs end with the same result: the reference's last stage of the
    argument arrays, which the kernel reaches stage by stage. -/
theorem algebraic : Cert.algebraic_KernelIdeal_ReferenceIdeal := by
  intro m ρ m' ρ' _ hagree
  refine ⟨fun c => Cert.ReferenceIdeal.ReadP.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.KernelValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
